-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x32 : Shape := ⟨2, ![1600000, 32]⟩
abbrev S1600000 : Shape := ⟨1, ![1600000]⟩
abbrev S128x160 : Shape := ⟨2, ![128, 160]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x160 : S_.BroadcastsInDim S128x160 (![] : Fin 0 → Fin S128x160.rank)
  reducesTo_S128x160_S_d0_1 : S128x160.ReducesTo [0, 1] S_

variable [Facts]

def fn {F : FTy → Type} [FloatOps F] (main_arg0 : FVec F S50000x128 .f32) (main_arg1 : FVec F S1600000x32 .f32) (main_arg2 : IVec S1600000 32) (main_arg3 : FVec F S128x160 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x160 .f32 := Host.absf main_arg3
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  main_v13
-- ==== Kernel.lean ====
abbrev S50000x128 : Shape := ⟨2, ![50000, 128]⟩
abbrev S1600000x32 : Shape := ⟨2, ![1600000, 32]⟩
abbrev S1600000 : Shape := ⟨1, ![1600000]⟩
abbrev S128x160 : Shape := ⟨2, ![128, 160]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S4000x32 : Shape := ⟨2, ![4000, 32]⟩
abbrev S4000x1 : Shape := ⟨2, ![4000, 1]⟩
abbrev S4000 : Shape := ⟨1, ![4000]⟩
abbrev S128x128 : Shape := ⟨2, ![128, 128]⟩
abbrev S128x32 : Shape := ⟨2, ![128, 32]⟩
abbrev S32x128 : Shape := ⟨2, ![32, 128]⟩
abbrev S5000x128 : Shape := ⟨2, ![5000, 128]⟩
abbrev S5000x32 : Shape := ⟨2, ![5000, 32]⟩

abbrev nBuf : Space → Nat
  | .hbm => 66
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S1600000x32, .f32⟩
  | .hbm, ⟨2, _⟩ => ⟨S1600000, .i32⟩
  | .hbm, ⟨3, _⟩ => ⟨S128x160, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S50000, .f32⟩
  | .hbm, ⟨8, _⟩ => ⟨S1600000x1, .i32⟩
  | .hbm, ⟨9, _⟩ => ⟨S50000, .f32⟩
  | .hbm, ⟨10, _⟩ => ⟨S_, .f32⟩
  | .hbm, ⟨11, _⟩ => ⟨S50000x32, .f32⟩
  | .hbm, ⟨12, _⟩ => ⟨S1600000x1, .i32⟩
  | .hbm, ⟨13, _⟩ => ⟨S50000x32, .f32⟩
  | .hbm, ⟨14, _⟩ => ⟨S50000x1, .f32⟩
  | .hbm, ⟨15, _⟩ => ⟨S_, .f32⟩
  | .hbm, ⟨16, _⟩ => ⟨S50000x1, .f32⟩
  | .hbm, ⟨17, _⟩ => ⟨S50000x1, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x32, .f32⟩
  | .hbm, ⟨23, _⟩ => ⟨S50000x32, .f32⟩
  | .hbm, ⟨24, _⟩ => ⟨S_, .f32⟩
  | .hbm, ⟨25, _⟩ => ⟨S_, .f32⟩
  | .hbm, ⟨26, _⟩ => ⟨S50000x32, .i1⟩
  | .hbm, ⟨27, _⟩ => ⟨S50000x32, .f32⟩
  | .hbm, ⟨28, _⟩ => ⟨S50000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S1600000x32, .f32⟩
  | .hbm, ⟨39, _⟩ => ⟨S1600000x1, .f32⟩
  | .hbm, ⟨40, _⟩ => ⟨S_, .f32⟩
  | .hbm, ⟨41, _⟩ => ⟨S50000x32, .f32⟩
  | .hbm, ⟨42, _⟩ => ⟨S1600000x1, .i32⟩
  | .hbm, ⟨43, _⟩ => ⟨S50000x32, .f32⟩
  | .hbm, ⟨44, _⟩ => ⟨S1600000, .f32⟩
  | .hbm, ⟨45, _⟩ => ⟨S_, .f32⟩
  | .hbm, ⟨46, _⟩ => ⟨S50000, .f32⟩
  | .hbm, ⟨47, _⟩ => ⟨S1600000x1, .i32⟩
  | .hbm, ⟨48, _⟩ => ⟨S50000, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .i1⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x32, .f32⟩
  | .hbm, ⟨58, _⟩ => ⟨S50000x32, .f32⟩
  | .hbm, ⟨59, _⟩ => ⟨S50000x32, .i1⟩
  | .hbm, ⟨60, _⟩ => ⟨S50000x32, .f32⟩
  | .hbm, ⟨61, _⟩ => ⟨S128x128, .f32⟩
  | .hbm, ⟨62, _⟩ => ⟨S128x128, .f32⟩
  | .hbm, ⟨63, _⟩ => ⟨S128x32, .f32⟩
  | .hbm, ⟨64, _⟩ => ⟨S32x128, .f32⟩
  | .hbm, ⟨65, _⟩ => ⟨S50000x128, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x1, .f32⟩
  | .local _ .vmem, ⟨7, _⟩ => ⟨S4000x1, .f32⟩
  | .local _ .vmem, ⟨8, _⟩ => ⟨S5000x128, .f32⟩
  | .local _ .vmem, ⟨9, _⟩ => ⟨S5000x128, .f32⟩
  | .local _ .vmem, ⟨10, _⟩ => ⟨S5000x32, .f32⟩
  | .local _ .vmem, ⟨11, _⟩ => ⟨S5000x32, .f32⟩
  | .local _ .vmem, ⟨12, _⟩ => ⟨S128x128, .f32⟩
  | .local _ .vmem, ⟨13, _⟩ => ⟨S32x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  reduces_S4000x32_S4000 : S4000x32.Reduces [1] S4000
  shapeCasts_S4000_S4000x1 : S4000.ShapeCasts S4000x1
  natLt_1_32 : 1 < 32
  broadcasts_S4000x1_S4000x32 : S4000x1.Broadcasts S4000x32
  inb_S4000x1_S4000x1_0_0 : ∀ a, (![0, 0] : Fin 2 → Nat) a + S4000x1.size a ≤ S4000x1.size a
  h_S4000x1 : 0 < S4000x1.numel
  shapeCasts_S1600000x1_S1600000 : S1600000x1.ShapeCasts S1600000
  slices_S128x160_S128x128_0_0 : S128x160.Slices ![0, 0] S128x128
  transposes_S128x128_S128x128_1_0 : S128x128.Transposes [1, 0] S128x128
  slices_S128x160_S128x32_0_128 : S128x160.Slices ![0, 128] S128x32
  transposes_S128x32_S32x128_1_0 : S128x32.Transposes [1, 0] S32x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S1600000x32.size a
  hwx0_0 : ∀ i : grid0.Coords, EltTy.bits .f32 = 32 ∨ (Rect.block (s := S1600000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S1600000x32.size a
  hwx0_1 : ∀ i : grid0.Coords, EltTy.bits .f32 = 32 ∨ (Rect.block (s := S1600000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1600000x32.size a
  hwx0_2 : ∀ i : grid0.Coords, EltTy.bits .f32 = 32 ∨ (Rect.block (s := S1600000x32) S4000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1600000x1.size a
  hwx0_3 : ∀ i : grid0.Coords, EltTy.bits .f32 = 32 ∨ (Rect.block (s := S1600000x1) S4000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf

abbrev win0_0 : Pipeline.Window sig grid0 :=
  Pipeline.Window.ofSpec (Memref.whole main_v22) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23_0) S4000x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_1) S4000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000x32 : Shape := ⟨2, ![1600000, 32]⟩
abbrev S1600000 : Shape := ⟨1, ![1600000]⟩
abbrev S128x160 : Shape := ⟨2, ![128, 160]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S50000x160 : Shape := ⟨2, ![50000, 160]⟩
abbrev S160x128 : Shape := ⟨2, ![160, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x32, .f32⟩
  | .hbm, ⟨2, _⟩ => ⟨S1600000, .i32⟩
  | .hbm, ⟨3, _⟩ => ⟨S128x160, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S50000, .f32⟩
  | .hbm, ⟨8, _⟩ => ⟨S1600000x1, .i32⟩
  | .hbm, ⟨9, _⟩ => ⟨S50000, .f32⟩
  | .hbm, ⟨10, _⟩ => ⟨S_, .f32⟩
  | .hbm, ⟨11, _⟩ => ⟨S50000x32, .f32⟩
  | .hbm, ⟨12, _⟩ => ⟨S1600000x1, .i32⟩
  | .hbm, ⟨13, _⟩ => ⟨S50000x32, .f32⟩
  | .hbm, ⟨14, _⟩ => ⟨S50000x1, .f32⟩
  | .hbm, ⟨15, _⟩ => ⟨S_, .f32⟩
  | .hbm, ⟨16, _⟩ => ⟨S50000x1, .f32⟩
  | .hbm, ⟨17, _⟩ => ⟨S50000x1, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x32, .f32⟩
  | .hbm, ⟨23, _⟩ => ⟨S50000x32, .f32⟩
  | .hbm, ⟨24, _⟩ => ⟨S_, .f32⟩
  | .hbm, ⟨25, _⟩ => ⟨S_, .f32⟩
  | .hbm, ⟨26, _⟩ => ⟨S50000x32, .i1⟩
  | .hbm, ⟨27, _⟩ => ⟨S50000x32, .f32⟩
  | .hbm, ⟨28, _⟩ => ⟨S50000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S1600000, .f32⟩
  | .hbm, ⟨41, _⟩ => ⟨S1600000x32, .f32⟩
  | .hbm, ⟨42, _⟩ => ⟨S_, .f32⟩
  | .hbm, ⟨43, _⟩ => ⟨S1600000, .f32⟩
  | .hbm, ⟨44, _⟩ => ⟨S1600000, .f32⟩
  | .hbm, ⟨45, _⟩ => ⟨S1600000x32, .f32⟩
  | .hbm, ⟨46, _⟩ => ⟨S_, .f32⟩
  | .hbm, ⟨47, _⟩ => ⟨S1600000, .f32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S_, .f32⟩
  | .hbm, ⟨52, _⟩ => ⟨S1600000, .f32⟩
  | .hbm, ⟨53, _⟩ => ⟨S1600000, .i1⟩
  | .hbm, ⟨54, _⟩ => ⟨S1600000, .f32⟩
  | .hbm, ⟨55, _⟩ => ⟨S1600000x1, .f32⟩
  | .hbm, ⟨56, _⟩ => ⟨S1600000x32, .f32⟩
  | .hbm, ⟨57, _⟩ => ⟨S1600000x32, .f32⟩
  | .hbm, ⟨58, _⟩ => ⟨S_, .f32⟩
  | .hbm, ⟨59, _⟩ => ⟨S50000x32, .f32⟩
  | .hbm, ⟨60, _⟩ => ⟨S1600000x1, .i32⟩
  | .hbm, ⟨61, _⟩ => ⟨S50000x32, .f32⟩
  | .hbm, ⟨62, _⟩ => ⟨S_, .f32⟩
  | .hbm, ⟨63, _⟩ => ⟨S50000, .f32⟩
  | .hbm, ⟨64, _⟩ => ⟨S1600000x1, .i32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .i1⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x32, .f32⟩
  | .hbm, ⟨75, _⟩ => ⟨S50000x32, .f32⟩
  | .hbm, ⟨76, _⟩ => ⟨S50000x32, .i1⟩
  | .hbm, ⟨77, _⟩ => ⟨S50000x32, .f32⟩
  | .hbm, ⟨78, _⟩ => ⟨S50000x160, .f32⟩
  | .hbm, ⟨79, _⟩ => ⟨S160x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_v25 : Ref sig .tc := ⟨.hbm, 44, rfl⟩
abbrev main_call2_v0 : Ref sig .tc := ⟨.hbm, 45, rfl⟩
abbrev main_call2_cst : Ref sig .tc := ⟨.hbm, 46, rfl⟩
abbrev main_call2_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call3_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  reducesTo_S1600000x32_S1600000_d1 : S1600000x32.ReducesTo [1] S1600000
  h_S_ : 0 < S_.numel
  bcast_S1600000x1_S1600000x32_0_1 : S1600000x1.BroadcastsInDim S1600000x32 (![0, 1] : Fin 2 → Fin S1600000x32.rank)
  concatenates_S50000x128_S50000x32_S50000x160_d1 : Shape.Concatenates [S50000x128, S50000x32] S50000x160 1
  transposes_S128x160_S160x128_1_0 : S128x160.Transposes [1, 0] S160x128
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S50000x160_S160x128_S50000x128_1_0_0_1_n_n_wf : DotDims.WF S50000x160 S160x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf

class Facts : Prop extends Facts₀ where

variable [Facts]
-- ==== Proof.KernelStretch.lean ====
/-
  The idealized kernel's two stretches of host operations, read part by part from ANY contents of the buffers before each
  part: what each part leaves in the buffers later parts and the kernel regions read, and that it leaves the rest alone.
-/
import proofs.«108021_j48077863911783_2_alg».proof.Proof.Gen.KernelIdeal.Frame
import proofs.«108021_j48077863911783_2_alg».proof.Proof.RefRead
import Idealize.ShloMosaic.Lib.StableHlo.Run
import Idealize.ShloMosaic.Lib.Pipeline.Value

set_option maxRecDepth 16384

noncomputable section

open scoped BigOperators

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen
open Cert.ReferenceIdeal.ReadP (val_main_v15 val_main_v22 val_main_v31 val_main_v34 val_main_v49 val_main_v52)

/-! ## A typed reference's transport is the identity

A called function's operations name their buffers by typed references; contents pass to and from a buffer through a
transport along "the buffer's type is the value's type".  For each buffer of this program that equation holds by
computation, so the transport is the identity. -/

theorem toBuf_main_cst_4 (p1 : (main_cst_4 : Ref sig .tc).ty = ⟨S_, .f32⟩) (p2 : (main_cst_4 : Ref sig .tc).space ≠ .host) (p3 : (main_cst_4 : Ref sig .tc).isScoped = false)
    (v : (⟨S_, .f32⟩ : BufTy).Contents (Elt Ideal)) : (TRef.of (T := ⟨S_, .f32⟩) main_cst_4 p1 p2 p3).toBuf v = v := rfl
theorem ofBuf_main_cst_4 (p1 : (main_cst_4 : Ref sig .tc).ty = ⟨S_, .f32⟩) (p2 : (main_cst_4 : Ref sig .tc).space ≠ .host) (p3 : (main_cst_4 : Ref sig .tc).isScoped = false)
    (v : (⟨S_, .f32⟩ : BufTy).Contents (Elt Ideal)) : (TRef.of (T := ⟨S_, .f32⟩) main_cst_4 p1 p2 p3).ofBuf v = v := rfl
theorem toBuf_main_call0_v0 (p1 : (main_call0_v0 : Ref sig .tc).ty = ⟨S_, .f32⟩) (p2 : (main_call0_v0 : Ref sig .tc).space ≠ .host) (p3 : (main_call0_v0 : Ref sig .tc).isScoped = false)
    (v : (⟨S_, .f32⟩ : BufTy).Contents (Elt Ideal)) : (TRef.of (T := ⟨S_, .f32⟩) main_call0_v0 p1 p2 p3).toBuf v = v := rfl
theorem ofBuf_main_call0_v0 (p1 : (main_call0_v0 : Ref sig .tc).ty = ⟨S_, .f32⟩) (p2 : (main_call0_v0 : Ref sig .tc).space ≠ .host) (p3 : (main_call0_v0 : Ref sig .tc).isScoped = false)
    (v : (⟨S_, .f32⟩ : BufTy).Contents (Elt Ideal)) : (TRef.of (T := ⟨S_, .f32⟩) main_call0_v0 p1 p2 p3).ofBuf v = v := rfl
theorem toBuf_main_v9 (p1 : (main_v9 : Ref sig .tc).ty = ⟨S50000x1, .i1⟩) (p2 : (main_v9 : Ref sig .tc).space ≠ .host) (p3 : (main_v9 : Ref sig .tc).isScoped = false)
    (v : (⟨S50000x1, .i1⟩ : BufTy).Contents (Elt Ideal)) : (TRef.of (T := ⟨S50000x1, .i1⟩) main_v9 p1 p2 p3).toBuf v = v := rfl
theorem ofBuf_main_v9 (p1 : (main_v9 : Ref sig .tc).ty = ⟨S50000x1, .i1⟩) (p2 : (main_v9 : Ref sig .tc).space ≠ .host) (p3 : (main_v9 : Ref sig .tc).isScoped = false)
    (v : (⟨S50000x1, .i1⟩ : BufTy).Contents (Elt Ideal)) : (TRef.of (T := ⟨S50000x1, .i1⟩) main_v9 p1 p2 p3).ofBuf v = v := rfl
theorem toBuf_main_call0_v1 (p1 : (main_call0_v1 : Ref sig .tc).ty = ⟨S50000x32, .i1⟩) (p2 : (main_call0_v1 : Ref sig .tc).space ≠ .host) (p3 : (main_call0_v1 : Ref sig .tc).isScoped = false)
    (v : (⟨S50000x32, .i1⟩ : BufTy).Contents (Elt Ideal)) : (TRef.of (T := ⟨S50000x32, .i1⟩) main_call0_v1 p1 p2 p3).toBuf v = v := rfl
theorem ofBuf_main_call0_v1 (p1 : (main_call0_v1 : Ref sig .tc).ty = ⟨S50000x32, .i1⟩) (p2 : (main_call0_v1 : Ref sig .tc).space ≠ .host) (p3 : (main_call0_v1 : Ref sig .tc).isScoped = false)
    (v : (⟨S50000x32, .i1⟩ : BufTy).Contents (Elt Ideal)) : (TRef.of (T := ⟨S50000x32, .i1⟩) main_call0_v1 p1 p2 p3).ofBuf v = v := rfl
theorem toBuf_main_call0_v2 (p1 : (main_call0_v2 : Ref sig .tc).ty = ⟨S50000x32, .f32⟩) (p2 : (main_call0_v2 : Ref sig .tc).space ≠ .host) (p3 : (main_call0_v2 : Ref sig .tc).isScoped = false)
    (v : (⟨S50000x32, .f32⟩ : BufTy).Contents (Elt Ideal)) : (TRef.of (T := ⟨S50000x32, .f32⟩) main_call0_v2 p1 p2 p3).toBuf v = v := rfl
theorem ofBuf_main_call0_v2 (p1 : (main_call0_v2 : Ref sig .tc).ty = ⟨S50000x32, .f32⟩) (p2 : (main_call0_v2 : Ref sig .tc).space ≠ .host) (p3 : (main_call0_v2 : Ref sig .tc).isScoped = false)
    (v : (⟨S50000x32, .f32⟩ : BufTy).Contents (Elt Ideal)) : (TRef.of (T := ⟨S50000x32, .f32⟩) main_call0_v2 p1 p2 p3).ofBuf v = v := rfl
theorem toBuf_main_v14 (p1 : (main_v14 : Ref sig .tc).ty = ⟨S50000x32, .f32⟩) (p2 : (main_v14 : Ref sig .tc).space ≠ .host) (p3 : (main_v14 : Ref sig .tc).isScoped = false)
    (v : (⟨S50000x32, .f32⟩ : BufTy).Contents (Elt Ideal)) : (TRef.of (T := ⟨S50000x32, .f32⟩) main_v14 p1 p2 p3).toBuf v = v := rfl
theorem ofBuf_main_v14 (p1 : (main_v14 : Ref sig .tc).ty = ⟨S50000x32, .f32⟩) (p2 : (main_v14 : Ref sig .tc).space ≠ .host) (p3 : (main_v14 : Ref sig .tc).isScoped = false)
    (v : (⟨S50000x32, .f32⟩ : BufTy).Contents (Elt Ideal)) : (TRef.of (T := ⟨S50000x32, .f32⟩) main_v14 p1 p2 p3).ofBuf v = v := rfl
theorem toBuf_main_v15 (p1 : (main_v15 : Ref sig .tc).ty = ⟨S50000x32, .f32⟩) (p2 : (main_v15 : Ref sig .tc).space ≠ .host) (p3 : (main_v15 : Ref sig .tc).isScoped = false)
    (v : (⟨S50000x32, .f32⟩ : BufTy).Contents (Elt Ideal)) : (TRef.of (T := ⟨S50000x32, .f32⟩) main_v15 p1 p2 p3).toBuf v = v := rfl
theorem ofBuf_main_v15 (p1 : (main_v15 : Ref sig .tc).ty = ⟨S50000x32, .f32⟩) (p2 : (main_v15 : Ref sig .tc).space ≠ .host) (p3 : (main_v15 : Ref sig .tc).isScoped = false)
    (v : (⟨S50000x32, .f32⟩ : BufTy).Contents (Elt Ideal)) : (TRef.of (T := ⟨S50000x32, .f32⟩) main_v15 p1 p2 p3).ofBuf v = v := rfl
theorem toBuf_main_v33 (p1 : (main_v33 : Ref sig .tc).ty = ⟨S50000x1, .i1⟩) (p2 : (main_v33 : Ref sig .tc).space ≠ .host) (p3 : (main_v33 : Ref sig .tc).isScoped = false)
    (v : (⟨S50000x1, .i1⟩ : BufTy).Contents (Elt Ideal)) : (TRef.of (T := ⟨S50000x1, .i1⟩) main_v33 p1 p2 p3).toBuf v = v := rfl
theorem ofBuf_main_v33 (p1 : (main_v33 : Ref sig .tc).ty = ⟨S50000x1, .i1⟩) (p2 : (main_v33 : Ref sig .tc).space ≠ .host) (p3 : (main_v33 : Ref sig .tc).isScoped = false)
    (v : (⟨S50000x1, .i1⟩ : BufTy).Contents (Elt Ideal)) : (TRef.of (T := ⟨S50000x1, .i1⟩) main_v33 p1 p2 p3).ofBuf v = v := rfl
theorem toBuf_main_call1_v0 (p1 : (main_call1_v0 : Ref sig .tc).ty = ⟨S50000x32, .i1⟩) (p2 : (main_call1_v0 : Ref sig .tc).space ≠ .host) (p3 : (main_call1_v0 : Ref sig .tc).isScoped = false)
    (v : (⟨S50000x32, .i1⟩ : BufTy).Contents (Elt Ideal)) : (TRef.of (T := ⟨S50000x32, .i1⟩) main_call1_v0 p1 p2 p3).toBuf v = v := rfl
theorem ofBuf_main_call1_v0 (p1 : (main_call1_v0 : Ref sig .tc).ty = ⟨S50000x32, .i1⟩) (p2 : (main_call1_v0 : Ref sig .tc).space ≠ .host) (p3 : (main_call1_v0 : Ref sig .tc).isScoped = false)
    (v : (⟨S50000x32, .i1⟩ : BufTy).Contents (Elt Ideal)) : (TRef.of (T := ⟨S50000x32, .i1⟩) main_call1_v0 p1 p2 p3).ofBuf v = v := rfl
theorem toBuf_main_v38 (p1 : (main_v38 : Ref sig .tc).ty = ⟨S50000x32, .f32⟩) (p2 : (main_v38 : Ref sig .tc).space ≠ .host) (p3 : (main_v38 : Ref sig .tc).isScoped = false)
    (v : (⟨S50000x32, .f32⟩ : BufTy).Contents (Elt Ideal)) : (TRef.of (T := ⟨S50000x32, .f32⟩) main_v38 p1 p2 p3).toBuf v = v := rfl
theorem ofBuf_main_v38 (p1 : (main_v38 : Ref sig .tc).ty = ⟨S50000x32, .f32⟩) (p2 : (main_v38 : Ref sig .tc).space ≠ .host) (p3 : (main_v38 : Ref sig .tc).isScoped = false)
    (v : (⟨S50000x32, .f32⟩ : BufTy).Contents (Elt Ideal)) : (TRef.of (T := ⟨S50000x32, .f32⟩) main_v38 p1 p2 p3).ofBuf v = v := rfl
theorem toBuf_main_v39 (p1 : (main_v39 : Ref sig .tc).ty = ⟨S50000x32, .f32⟩) (p2 : (main_v39 : Ref sig .tc).space ≠ .host) (p3 : (main_v39 : Ref sig .tc).isScoped = false)
    (v : (⟨S50000x32, .f32⟩ : BufTy).Contents (Elt Ideal)) : (TRef.of (T := ⟨S50000x32, .f32⟩) main_v39 p1 p2 p3).toBuf v = v := rfl
theorem ofBuf_main_v39 (p1 : (main_v39 : Ref sig .tc).ty = ⟨S50000x32, .f32⟩) (p2 : (main_v39 : Ref sig .tc).space ≠ .host) (p3 : (main_v39 : Ref sig .tc).isScoped = false)
    (v : (⟨S50000x32, .f32⟩ : BufTy).Contents (Elt Ideal)) : (TRef.of (T := ⟨S50000x32, .f32⟩) main_v39 p1 p2 p3).ofBuf v = v := rfl

/-! ## The first stretch

The stretch is read in its three parts — 21 operations of the program, the four of the called select, nine more up to the
gather — each from ANY contents `W` of the buffers before it. -/

section Stretches
variable (W : Valuation τ sig (Elt Ideal))

/-- After the first 21 operations: "the node has an incoming edge". -/
theorem s1_gt : (StableHlo.after (hostOps0 (F := Ideal)) W (Proc.devRef .tc main_v9) : IVec S50000x1 1)
    = Cert.ReferenceIdeal.ReadP.val_main_v9 (F := Ideal) (W (Proc.devRef .tc main_arg2)) := by
  after_results_simp
  rfl
/-- After the first 21 operations: the per-node sum of edge features over the degree (at least 1). -/
theorem s1_mean : (StableHlo.after (hostOps0 (F := Ideal)) W (Proc.devRef .tc main_v14) : FVec Ideal S50000x32 .f32)
    = Cert.ReferenceIdeal.ReadP.val_main_v14 (F := Ideal) (W (Proc.devRef .tc main_arg1)) (W (Proc.devRef .tc main_arg2)) := by
  after_results_simp
  rfl
theorem s1_zero : (StableHlo.after (hostOps0 (F := Ideal)) W (Proc.devRef .tc main_cst_4) : FVec Ideal S_ .f32)
    = Cert.ReferenceIdeal.ReadP.val_main_cst_4 (F := Ideal) := by
  after_results_simp
  rfl
theorem s1_arg0 : StableHlo.after (hostOps0 (F := Ideal)) W (Proc.devRef .tc main_arg0) = W (Proc.devRef .tc main_arg0) := by after_results_simp
theorem s1_arg1 : StableHlo.after (hostOps0 (F := Ideal)) W (Proc.devRef .tc main_arg1) = W (Proc.devRef .tc main_arg1) := by after_results_simp
theorem s1_arg2 : StableHlo.after (hostOps0 (F := Ideal)) W (Proc.devRef .tc main_arg2) = W (Proc.devRef .tc main_arg2) := by after_results_simp
theorem s1_arg3 : StableHlo.after (hostOps0 (F := Ideal)) W (Proc.devRef .tc main_arg3) = W (Proc.devRef .tc main_arg3) := by after_results_simp

/-- The called select: the mean where the node has an incoming edge, zero elsewhere. -/
theorem s2_nodeMeans : (StableHlo.after (hostOps0_1 (F := Ideal)) W (Proc.devRef .tc main_v15) : FVec Ideal S50000x32 .f32)
    = select (broadcastInDim S50000x32 ![0, 1] bcast_S50000x1_S50000x32_0_1 (W (Proc.devRef .tc main_v9)))
        (W (Proc.devRef .tc main_v14)) (broadcastInDim S50000x32 ![] bcast_S_S50000x32 (id (W (Proc.devRef .tc main_cst_4)))) := by
  after_results_simp
  simp only [toBuf_main_cst_4, ofBuf_main_cst_4, toBuf_main_call0_v0, ofBuf_main_call0_v0, toBuf_main_v9, ofBuf_main_v9, toBuf_main_call0_v1, ofBuf_main_call0_v1, toBuf_main_call0_v2, ofBuf_main_call0_v2, toBuf_main_v14, ofBuf_main_v14, toBuf_main_v15, ofBuf_main_v15, toBuf_main_v33, ofBuf_main_v33, toBuf_main_call1_v0, ofBuf_main_call1_v0, toBuf_main_v38, ofBuf_main_v38, toBuf_main_v39, ofBuf_main_v39]
theorem s2_arg0 : StableHlo.after (hostOps0_1 (F := Ideal)) W (Proc.devRef .tc main_arg0) = W (Proc.devRef .tc main_arg0) := by after_results_simp
theorem s2_arg1 : StableHlo.after (hostOps0_1 (F := Ideal)) W (Proc.devRef .tc main_arg1) = W (Proc.devRef .tc main_arg1) := by after_results_simp
theorem s2_arg2 : StableHlo.after (hostOps0_1 (F := Ideal)) W (Proc.devRef .tc main_arg2) = W (Proc.devRef .tc main_arg2) := by after_results_simp
theorem s2_arg3 : StableHlo.after (hostOps0_1 (F := Ideal)) W (Proc.devRef .tc main_arg3) = W (Proc.devRef .tc main_arg3) := by after_results_simp

/-- The last nine operations: the per-node means gathered back to the edges, the index read with Python's wrap-around. -/
theorem s3_gather : (StableHlo.after (hostOps0_2 (F := Ideal)) W (Proc.devRef .tc main_v22) : FVec Ideal S1600000x32 .f32)
    = Host.gather gather_S50000x32_S1600000x1_S1600000x32_1_0_n_n_0_1_132 (W (Proc.devRef .tc main_v15) : FVec Ideal S50000x32 .f32)
        (Cert.ReferenceIdeal.ReadP.val_main_v21 (F := Ideal) (W (Proc.devRef .tc main_arg2))) := by
  after_results_simp
  rfl
theorem s3_nodeMeans : StableHlo.after (hostOps0_2 (F := Ideal)) W (Proc.devRef .tc main_v15) = W (Proc.devRef .tc main_v15) := by after_results_simp
theorem s3_arg0 : StableHlo.after (hostOps0_2 (F := Ideal)) W (Proc.devRef .tc main_arg0) = W (Proc.devRef .tc main_arg0) := by after_results_simp
theorem s3_arg1 : StableHlo.after (hostOps0_2 (F := Ideal)) W (Proc.devRef .tc main_arg1) = W (Proc.devRef .tc main_arg1) := by after_results_simp
theorem s3_arg2 : StableHlo.after (hostOps0_2 (F := Ideal)) W (Proc.devRef .tc main_arg2) = W (Proc.devRef .tc main_arg2) := by after_results_simp
theorem s3_arg3 : StableHlo.after (hostOps0_2 (F := Ideal)) W (Proc.devRef .tc main_arg3) = W (Proc.devRef .tc main_arg3) := by after_results_simp

end Stretches

/-! ## The second stretch

Read in its three parts — 19 operations of the program, the two of the called select, four more for the weights — each from
ANY contents `W` of the buffers before it. -/

/-- "Some incoming edge of the node passes", from the mask vector `mv` and the destination indices. -/
def passGt (mv : FVec Ideal S1600000 .f32) (dst : IVec S1600000 32) : IVec S50000x1 1 :=
  cmpf .ogt (broadcastInDim S50000x1 ![0] bcast_S50000_S50000x1_0
      (Host.scatterAdd scatter_S50000_S1600000x1_S1600000_n_0_0_1 (broadcastInDim S50000 ![] bcast_S_S50000 (constant (F := Ideal) S_ .f32 0x00000000#32))
        (broadcastInDim S1600000x1 ![0] bcast_S1600000_S1600000x1_0 dst) mv))
    (broadcastInDim S50000x1 ![] bcast_S_S50000x1 (constant (F := Ideal) S_ .f32 0x00000000#32))

/-- The per-node sum of the masked features `mf` over the count of passing edges (at least 1). -/
def passMean (mf : FVec Ideal S1600000x32 .f32) (mv : FVec Ideal S1600000 .f32) (dst : IVec S1600000 32) : FVec Ideal S50000x32 .f32 :=
  Host.divf (Host.scatterAdd scatter_S50000x32_S1600000x1_S1600000x32_1_0_0_1 (broadcastInDim S50000x32 ![] bcast_S_S50000x32 (constant (F := Ideal) S_ .f32 0x00000000#32))
      (broadcastInDim S1600000x1 ![0] bcast_S1600000_S1600000x1_0 dst) mf)
    (broadcastInDim S50000x32 ![0, 1] bcast_S50000x1_S50000x32_0_1 (broadcastInDim S50000x1 ![0] bcast_S50000_S50000x1_0
      (maximumf (Host.scatterAdd scatter_S50000_S1600000x1_S1600000_n_0_0_1 (broadcastInDim S50000 ![] bcast_S_S50000 (constant (F := Ideal) S_ .f32 0x00000000#32))
          (broadcastInDim S1600000x1 ![0] bcast_S1600000_S1600000x1_0 dst) mv)
        (broadcastInDim S50000 ![] bcast_S_S50000 (constant (F := Ideal) S_ .f32 0x3F800000#32)))))

section Stretches2
variable (W : Valuation τ sig (Elt Ideal))

theorem t1_pass : (StableHlo.after (hostOps1 (F := Ideal)) W (Proc.devRef .tc main_v33) : IVec S50000x1 1)
    = passGt (shapeCast S1600000 (W (Proc.devRef .tc main_v23_1) : FVec Ideal S1600000x1 .f32) shapeCasts_S1600000x1_S1600000)
        (W (Proc.devRef .tc main_arg2)) := by
  after_results_simp
  rfl
theorem t1_mean : (StableHlo.after (hostOps1 (F := Ideal)) W (Proc.devRef .tc main_v38) : FVec Ideal S50000x32 .f32)
    = passMean (W (Proc.devRef .tc main_v23_0))
        (shapeCast S1600000 (W (Proc.devRef .tc main_v23_1) : FVec Ideal S1600000x1 .f32) shapeCasts_S1600000x1_S1600000)
        (W (Proc.devRef .tc main_arg2)) := by
  after_results_simp
  rfl
theorem t1_nodeMeans : StableHlo.after (hostOps1 (F := Ideal)) W (Proc.devRef .tc main_v15) = W (Proc.devRef .tc main_v15) := by after_results_simp
theorem t1_arg0 : StableHlo.after (hostOps1 (F := Ideal)) W (Proc.devRef .tc main_arg0) = W (Proc.devRef .tc main_arg0) := by after_results_simp
theorem t1_arg3 : StableHlo.after (hostOps1 (F := Ideal)) W (Proc.devRef .tc main_arg3) = W (Proc.devRef .tc main_arg3) := by after_results_simp

/-- The called select: the masked mean where some edge passes, the plain mean elsewhere. -/
theorem t2_agg : (StableHlo.after (hostOps1_1 (F := Ideal)) W (Proc.devRef .tc main_v39) : FVec Ideal S50000x32 .f32)
    = select (broadcastInDim S50000x32 ![0, 1] bcast_S50000x1_S50000x32_0_1 (W (Proc.devRef .tc main_v33)))
        (W (Proc.devRef .tc main_v38)) (W (Proc.devRef .tc main_v15)) := by
  after_results_simp
  simp only [toBuf_main_cst_4, ofBuf_main_cst_4, toBuf_main_call0_v0, ofBuf_main_call0_v0, toBuf_main_v9, ofBuf_main_v9, toBuf_main_call0_v1, ofBuf_main_call0_v1, toBuf_main_call0_v2, ofBuf_main_call0_v2, toBuf_main_v14, ofBuf_main_v14, toBuf_main_v15, ofBuf_main_v15, toBuf_main_v33, ofBuf_main_v33, toBuf_main_call1_v0, ofBuf_main_call1_v0, toBuf_main_v38, ofBuf_main_v38, toBuf_main_v39, ofBuf_main_v39]
theorem t2_arg0 : StableHlo.after (hostOps1_1 (F := Ideal)) W (Proc.devRef .tc main_arg0) = W (Proc.devRef .tc main_arg0) := by after_results_simp
theorem t2_arg3 : StableHlo.after (hostOps1_1 (F := Ideal)) W (Proc.devRef .tc main_arg3) = W (Proc.devRef .tc main_arg3) := by after_results_simp

/-- The two weight pieces: the first 128 and the last 32 columns of the stacked weights, transposed. -/
theorem t3_wh : (StableHlo.after (hostOps1_2 (F := Ideal)) W (Proc.devRef .tc main_v41) : FVec Ideal S128x128 .f32)
    = transpose S128x128 [1, 0] (extractStridedSlice S128x128 ![0, 0] (W (Proc.devRef .tc main_arg3) : FVec Ideal S128x160 .f32) slices_S128x160_S128x128_0_0) transposes_S128x128_S128x128_1_0 := by
  after_results_simp
theorem t3_we : (StableHlo.after (hostOps1_2 (F := Ideal)) W (Proc.devRef .tc main_v43) : FVec Ideal S32x128 .f32)
    = transpose S32x128 [1, 0] (extractStridedSlice S128x32 ![0, 128] (W (Proc.devRef .tc main_arg3) : FVec Ideal S128x160 .f32) slices_S128x160_S128x32_0_128) transposes_S128x32_S32x128_1_0 := by
  after_results_simp
theorem t3_agg : StableHlo.after (hostOps1_2 (F := Ideal)) W (Proc.devRef .tc main_v39) = W (Proc.devRef .tc main_v39) := by after_results_simp
theorem t3_arg0 : StableHlo.after (hostOps1_2 (F := Ideal)) W (Proc.devRef .tc main_arg0) = W (Proc.devRef .tc main_arg0) := by after_results_simp

end Stretches2

/-- On the reference's mask vector, "some incoming edge passes" is the reference's. -/
theorem pass_ref (x1 : FVec Ideal S1600000x32 .f32) (x2 : IVec S1600000 32) :
    passGt (val_main_v31 (F := Ideal) x1 x2) x2 = Cert.ReferenceIdeal.ReadP.val_main_v43 (F := Ideal) x1 x2 := rfl

/-- On the reference's masked features and mask vector, the masked mean is the reference's. -/
theorem mean_ref (x1 : FVec Ideal S1600000x32 .f32) (x2 : IVec S1600000 32) :
    passMean (val_main_v34 (F := Ideal) x1 x2) (val_main_v31 (F := Ideal) x1 x2) x2 = Cert.ReferenceIdeal.ReadP.val_main_v48 (F := Ideal) x1 x2 := rfl

/-- The select of the reference's three pieces is the reference's aggregated features. -/
theorem agg_ref (x1 : FVec Ideal S1600000x32 .f32) (x2 : IVec S1600000 32) :
    select (broadcastInDim S50000x32 ![0, 1] bcast_S50000x1_S50000x32_0_1 (Cert.ReferenceIdeal.ReadP.val_main_v43 (F := Ideal) x1 x2))
        (Cert.ReferenceIdeal.ReadP.val_main_v48 (F := Ideal) x1 x2) (val_main_v15 (F := Ideal) x1 x2)
      = val_main_v49 (F := Ideal) x1 x2 := rfl

end Cert.KernelIdeal.Glue

end
-- ==== Proof.CosMask.lean ====
/-
  The cosine mask of an edge, as a function of two rows of 32 extended reals, and the two integer-to-float
  readings of a one-bit comparison that the two programs use for it.

  For rows `a` (the gathered node mean) and `b` (the edge's features) the mask is 1 when
  `(∑ aₖ bₖ) / (√(∑ aₖ²) · √(∑ bₖ²)) < 1/2` and 0 otherwise.  One program converts the comparison's bit by widening it
  to 32 bits without sign and reading that signed; the other reads the bit unsigned.  A zero-extended bit is
  non-negative, so the two readings are the same integer.
-/
import Idealize.ShloMosaic.PureOps.Ideal
import Idealize.ShloMosaic.PureOps.Ideal.Laws
import Idealize.ShloMosaic.Lib.ValueIdx

noncomputable section

open scoped BigOperators

namespace Cert.CosMask

open Idealize.ShloMosaic

/-- The mask of one edge from its two rows: the comparison's bit, read as an unsigned integer. -/
def rowMask (a b : Fin 32 → EReal) : EReal :=
  FloatOps.uitofp (F := Ideal) .f32
    (FloatOps.cmpf (F := Ideal) (φ := .f32) .olt
      (Ideal.div (∑ k : Fin 32, a k * b k) (Ideal.sqrt (∑ k : Fin 32, a k * a k) * Ideal.sqrt (∑ k : Fin 32, b k * b k)))
      (Ideal.ofBits .f32 0x3F000000#32))

/-- A bit widened without sign to 32 bits and read signed is the bit read unsigned. -/
theorem toInt_setWidth_bit : ∀ b : BitVec 1, ((b.setWidth 32).toInt : ℤ) = (b.toNat : ℤ) := by decide

/-- At the extended reals, converting the zero-extended bit as a signed integer gives what converting the bit as an
    unsigned integer gives. -/
theorem sitofp_extui_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit b]
  norm_cast

/-! ## The mask over whole arrays

`H` is the `[E, 32]` array of gathered node means, `E` the `[E, 32]` array of edge features (`E` = 1 600 000 edges). -/

/-- The shape of the two edge arrays. -/
abbrev SE32 : Shape := ⟨2, ![1600000, 32]⟩
/-- The shape of the mask kept as a column. -/
abbrev SE1 : Shape := ⟨2, ![1600000, 1]⟩

/-- Entry `k` of the row of an `[E, 32]` array that an index of the array lies in. -/
abbrev rowIx (i : SE32.Idx) (k : Fin 32) : SE32.Idx := fun a => match a with
  | ⟨0, _⟩ => ⟨(i 0).val, (i 0).isLt⟩
  | ⟨1, _⟩ => ⟨k.val, k.isLt⟩

/-- Entry `k` of the row of an `[E, 32]` array that an index of the `[E, 1]` column names. -/
abbrev colRowIx (i : SE1.Idx) (k : Fin 32) : SE32.Idx := fun a => match a with
  | ⟨0, _⟩ => ⟨(i 0).val, (i 0).isLt⟩
  | ⟨1, _⟩ => ⟨k.val, k.isLt⟩

/-- The masked edge features: each entry of `E` times the cosine mask of its row. -/
def maskedOf (H E : FVec Ideal SE32 .f32) : FVec Ideal SE32 .f32 := fun i =>
  E i * rowMask (fun k => H (rowIx i k)) (fun k => E (rowIx i k))

/-- The mask column: the cosine mask of each row. -/
def maskOf (H E : FVec Ideal SE32 .f32) : FVec Ideal SE1 .f32 := fun i =>
  rowMask (fun k => H (colRowIx i k)) (fun k => E (colRowIx i k))

/-- An entry of `E` times the mask of two rows is the masked feature at an index `i`, when the entry sits at `i` and
    the rows are `i`'s rows. -/
theorem masked_of_rows (H E : FVec Ideal SE32 .f32) (i i1 : SE32.Idx) (r0 r1 : Fin 32 → SE32.Idx) (h1 : i1 = i)
    (hr0 : ∀ k, r0 k = rowIx i k) (hr1 : ∀ k, r1 k = rowIx i k) :
    E i1 * rowMask (fun k => H (r0 k)) (fun k => E (r1 k)) = maskedOf H E i := by
  subst h1
  unfold maskedOf
  simp only [hr0, hr1]

/-- The mask of two rows is the mask column at an index `i`, when the rows are the rows `i` names. -/
theorem mask_of_rows (H E : FVec Ideal SE32 .f32) (i : SE1.Idx) (r0 r1 : Fin 32 → SE32.Idx)
    (hr0 : ∀ k, r0 k = colRowIx i k) (hr1 : ∀ k, r1 k = colRowIx i k) :
    rowMask (fun k => H (r0 k)) (fun k => E (r1 k)) = maskOf H E i := by
  unfold maskOf
  simp only [hr0, hr1]

end Cert.CosMask

end
-- ==== Proof.LibRowReduce.lean ====
/-
  A reduction of a matrix along its rows, read at a row.

  Reducing an `[a, b]` array over its second axis leaves one entry per row: for a sum, the sum of the row's `b` entries;
  for a maximum, the fold of `max` over them from the initial value.
-/
import Idealize.ShloMosaic.PureOps.Ideal
import Idealize.ShloMosaic.PureOps.Ideal.Laws
import Idealize.ShloMosaic.Lib.ValueIdx

noncomputable section

open scoped BigOperators

namespace Idealize.ShloMosaic.LibRowReduce

open Idealize.ShloMosaic Idealize.ShloMosaic.ValueIdx

variable {φ : FTy}

/-- The reduced index `p` with coordinate `k` put back on the reduced axis is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- A row sum: `vector.multi_reduction <add>` of an `[a, b]` array over its second axis, at row `p`. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A row maximum: `vector.multi_reduction <maximumf>` of an `[a, b]` array over its second axis, at row `p`. -/
theorem multiReduction_maximumf_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

end Idealize.ShloMosaic.LibRowReduce

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.LibColumnBroadcast.lean ====
/-
  One column broadcast over many.

  A keepdims column `[a, 1]` broadcast to `[a, b]` holds, at `(p, c)`, the column's entry of row `p`: the operand's second
  axis is a unit axis, so the broadcast reads it at `0`, and the first axis is carried along.
-/
import Idealize.ShloMosaic.Lib.Pipeline.Value
import Idealize.ShloMosaic.Lib.ValueIdx

namespace Idealize.ShloMosaic.LibColumnBroadcast

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumnBroadcast
-- ==== Proof.MaskBody.lean ====
/-
  The first kernel's body, read at an index.

  The body loads a block of 4000 gathered rows `h` and the block of 4000 edge rows `e` (32 entries each).  Per row it
  forms the three sums `∑ hₖ eₖ`, `∑ hₖ²`, `∑ eₖ²`, the quotient of the first by the product of the square roots of the
  other two, and the mask "quotient < 1/2" as 0 or 1.  It stores the column of masks and the rows `e · mask`.
  So the mask entry of row `r` is the cosine mask of rows `r` of the two blocks, and entry `(r, j)` of the masked block is
  `e (r, j)` times that mask.
-/
import proofs.«108021_j48077863911783_2_alg».proof.Proof.Gen.KernelIdeal.Skeleton
import proofs.«108021_j48077863911783_2_alg».proof.Proof.CosMask
import proofs.«108021_j48077863911783_2_alg».proof.Proof.LibRowReduce
import proofs.«108021_j48077863911783_2_alg».proof.Proof.LibColumn
import proofs.«108021_j48077863911783_2_alg».proof.Proof.LibColumnBroadcast
import Idealize.ShloMosaic.Lib.Pipeline.Value
import Idealize.ShloMosaic.Lib.ValueIdx

noncomputable section

open scoped BigOperators

namespace Cert.KernelIdeal.MaskBody

open Cert.KernelIdeal Cert.KernelIdeal.Gen Idealize.ShloMosaic Idealize.ShloMosaic.ValueIdx Cert.CosMask

/-- A row sum of products kept as a column: at `(r, u)` it is the sum over the row's 32 entries. -/
theorem rowsum (x y : FVec Ideal S4000x32 .f32) (r : Fin 4000) (u : Fin 1) :
    shapeCast S4000x1 (multiReduction .add [1] S4000 (mulf x y) 0x00000000#32 reduces_S4000x32_S4000 (.inl rfl) rfl)
        shapeCasts_S4000_S4000x1 (ix2 r u)
      = ∑ k : Fin 32, x (ix2 r k) * y (ix2 r k) :=
  (LibColumn.shapeCast_a_a1_apply _ shapeCasts_S4000_S4000x1 r u).trans
    ((LibRowReduce.multiReduction_add_row (mulf x y) 0x00000000#32 reduces_S4000x32_S4000 (.inl rfl) rfl r).trans
      (Finset.sum_congr rfl fun _ _ => rfl))

/-- The mask column computed from two blocks, at row `r`: the cosine mask of the blocks' rows `r`. -/
theorem mask_core (x y : FVec Ideal S4000x32 .f32) (r : Fin 4000) (u : Fin 1) :
    sitofp (F := Ideal) .f32 (extui 32 (cmpf .olt
        (divf (shapeCast S4000x1 (multiReduction .add [1] S4000 (mulf x y) 0x00000000#32 reduces_S4000x32_S4000 (.inl rfl) rfl) shapeCasts_S4000_S4000x1)
          (mulf (sqrt (shapeCast S4000x1 (multiReduction .add [1] S4000 (mulf x x) 0x00000000#32 reduces_S4000x32_S4000 (.inl rfl) rfl) shapeCasts_S4000_S4000x1))
            (sqrt (shapeCast S4000x1 (multiReduction .add [1] S4000 (mulf y y) 0x00000000#32 reduces_S4000x32_S4000 (.inl rfl) rfl) shapeCasts_S4000_S4000x1))))
        (broadcast S4000x1 (Scalar.ofBits (F := Ideal) .f32 0x3F000000#32))) natLt_1_32) (ix2 r u)
      = rowMask (fun k => x (ix2 r k)) (fun k => y (ix2 r k)) := by
  refine (sitofp_extui_bit _).trans ?_
  unfold rowMask
  refine congrArg (fun z => FloatOps.uitofp (F := Ideal) .f32 z) ?_
  refine congrArg₂ (fun p q => FloatOps.cmpf (F := Ideal) (φ := .f32) .olt (Ideal.div p q) (Ideal.ofBits .f32 0x3F000000#32))
    (rowsum x y r u) ?_
  exact congrArg₂ (fun p q => Ideal.sqrt p * Ideal.sqrt q) (rowsum x x r u) (rowsum y y r u)

/-- The mask the body stores, at row `r` of the block. -/
theorem mask_apply (v0 v2 : Vec Ideal S4000x32 .f32) (r : Fin 4000) (u : Fin 1) :
    k0_pay1 (F := Ideal) v0 v2 (ix2 r u) = rowMask (fun k => v0 (ix2 r k)) (fun k => v2 (ix2 r k)) := by
  have e : shapeCast S4000x32 v0 shapeCasts_S4000x32_S4000x32 = v0 := shapeCast_self v0 _
  refine (mask_core (shapeCast S4000x32 v0 shapeCasts_S4000x32_S4000x32) v2 r u).trans ?_
  rw [e]

/-- The masked features the body stores, at `(r, j)`: the edge's entry times the row's mask. -/
theorem masked_apply (v0 v2 : Vec Ideal S4000x32 .f32) (r : Fin 4000) (j : Fin 32) :
    k0_pay2 (F := Ideal) v0 v2 (ix2 r j) = v2 (ix2 r j) * rowMask (fun k => v0 (ix2 r k)) (fun k => v2 (ix2 r k)) := by
  unfold k0_pay2
  show v2 (ix2 r j) * broadcastTo S4000x32 (k0_pay1 (F := Ideal) v0 v2) broadcasts_S4000x1_S4000x32 (ix2 r j) = _
  refine congrArg (fun z => v2 (ix2 r j) * z) ?_
  exact (LibColumnBroadcast.broadcastTo_a1_ab_apply _ broadcasts_S4000x1_S4000x32 r j).trans (mask_apply v0 v2 r 0)

end Cert.KernelIdeal.MaskBody

end
-- ==== Proof.MaskArrays.lean ====
/-
  The first region's two result arrays as whole-array functions of the arrays the region finds.

  The region walks 400 blocks of 4000 edges.  Point `t` reads rows `4000 t … 4000 t + 3999` of the gathered means `H` and
  of the edge features `E` and writes back the same rows of the masked features and of the mask column.  A row's mask
  depends on that row of `H` and `E` only, so block `t` of each result is block `t` of ONE function of `H` and `E`:
  entry `(e, j)` of the masked features is `E (e, j) · mask e`, entry `(e, 0)` of the mask column is `mask e`, where
  `mask e` is the cosine mask of rows `e` of `H` and `E`.  The 400 blocks tile the arrays, so the arrays end as these.
-/
import proofs.«108021_j48077863911783_2_alg».proof.Proof.Gen.KernelIdeal.Frame
import proofs.«108021_j48077863911783_2_alg».proof.Proof.MaskBody
import Idealize.ShloMosaic.Lib.Pipeline.Value
import Idealize.ShloMosaic.Lib.ValueIdx

set_option maxRecDepth 16384

noncomputable section

open scoped BigOperators

namespace Cert.KernelIdeal.MaskArrays

open Idealize.ShloMosaic Idealize.ShloMosaic.TcCoe Idealize.SL.Sem Idealize.ShloMosaic.ValueIdx
open Idealize.ShloMosaic.Pipeline (Dat)
open Cert.KernelIdeal Cert.KernelIdeal.Gen Cert.CosMask

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: all four windows sit at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK to the masked features is block `t` of `maskedOf` of the two arrays read. -/
theorem flushed2_eq (c : Dev nD) (t : Fin cfg0.N) :
    (dat0 V c).flushed 2 t = ((cfg0.win 2).blk t).view.read (Elt Ideal) (maskedOf (V c main_v22) (V c main_arg1)) := by
  show (cfg0.win 2).cut (grid0.coords t) ((dat0 V c).after 2 t) = _
  rw [after0_2]
  unfold out0_2
  rw [View.canon_unit_zero hz]
  simp only [View.ld_unit_zero (S := S4000x32) hz]
  obtain ⟨e0, e1, e2, e3, e4, e5, -, -⟩ := idx_facts t
  funext y
  obtain ⟨r, j, rfl⟩ : ∃ (r : Fin 4000) (j : Fin 32), y = ix2 r j := ⟨y 0, y 1, eq_ix2 y⟩
  show k0_pay2 (F := Ideal) (iblk0 V c 0 t) (iblk0 V c 1 t) (ix2 r j)
    = maskedOf (V c main_v22) (V c main_arg1) (((cfg0.win 2).blk t).view.emb (ix2 r j))
  refine (MaskBody.masked_apply (iblk0 V c 0 t) (iblk0 V c 1 t) r j).trans ?_
  have h1 : ((cfg0.win 1).blk t).view.emb (ix2 r j) = ((cfg0.win 2).blk t).view.emb (ix2 r j) := by
    funext a; apply Fin.ext
    match a with
    | ⟨0, _⟩ => show win0_1.index t (0 : Fin 2) * 4000 + 1 * r.val = win0_2.index t (0 : Fin 2) * 4000 + 1 * r.val; omega
    | ⟨1, _⟩ => show win0_1.index t (1 : Fin 2) * 32 + 1 * j.val = win0_2.index t (1 : Fin 2) * 32 + 1 * j.val; omega
  have hr0 : ∀ k : Fin 32, ((cfg0.win 0).blk t).view.emb (ix2 r k) = rowIx (((cfg0.win 2).blk t).view.emb (ix2 r j)) k := by
    intro k; funext a; apply Fin.ext
    match a with
    | ⟨0, _⟩ => show win0_0.index t (0 : Fin 2) * 4000 + 1 * r.val = win0_2.index t (0 : Fin 2) * 4000 + 1 * r.val; omega
    | ⟨1, _⟩ => show win0_0.index t (1 : Fin 2) * 32 + 1 * k.val = k.val; omega
  have hr1 : ∀ k : Fin 32, ((cfg0.win 1).blk t).view.emb (ix2 r k) = rowIx (((cfg0.win 2).blk t).view.emb (ix2 r j)) k := by
    intro k; funext a; apply Fin.ext
    match a with
    | ⟨0, _⟩ => show win0_1.index t (0 : Fin 2) * 4000 + 1 * r.val = win0_2.index t (0 : Fin 2) * 4000 + 1 * r.val; omega
    | ⟨1, _⟩ => show win0_1.index t (1 : Fin 2) * 32 + 1 * k.val = k.val; omega
  exact masked_of_rows (V c main_v22) (V c main_arg1) (((cfg0.win 2).blk t).view.emb (ix2 r j)) (((cfg0.win 1).blk t).view.emb (ix2 r j))
    (fun k => ((cfg0.win 0).blk t).view.emb (ix2 r k)) (fun k => ((cfg0.win 1).blk t).view.emb (ix2 r k)) h1 hr0 hr1

/-- An index of the masked-feature array is in point `t`'s block iff each coordinate is in the block's range. -/
theorem mem_blk2 (t : Fin cfg0.N) (i : S1600000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v23_0).slice (win0_2.rect t)).set ↔ _
  rw [View.set_slice_whole, Rect.mem_set_unit]
  exact Iff.rfl

/-- The 400 blocks cover the masked-feature array: row `e` lies in block `e / 4000`. -/
theorem cover2 (i : S1600000x32.Idx) : ∃ t : Fin cfg0.N, (cfg0.win 2).flush t = true ∧ i ∈ ((cfg0.win 2).blk t).view.set := by
  have hi0 : (i 0).val < 1600000 := (i 0).isLt
  have hi1 : (i 1).val < 32 := (i 1).isLt
  have hN : cfg0.N = 400 := N_0
  refine ⟨⟨(i 0).val / 4000, by rw [hN]; omega⟩, flush0_2 _, ?_⟩
  rw [mem_blk2]
  obtain ⟨-, -, -, -, e4, e5, -, -⟩ := idx_facts ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 32 ≤ (i 1).val ∧ (i 1).val < win0_2.index _ (1 : Fin 2) * 32 + 32
    rw [e5]; omega

/-- THE MASKED FEATURES after the region: `maskedOf` of the gathered means and the edge features as the region finds them. -/
theorem final2 (c : Dev nD) : (dat0 V c).arrAt 2 cfg0.N = maskedOf (V c main_v22) (V c main_arg1) :=
  (dat0 V c).arrAt_eq_of_cover 2 (maskedOf (V c main_v22) (V c main_arg1)) (fun t _ => flushed2_eq V c t) cover2

/-- WHAT POINT `t` WRITES BACK to the mask column is block `t` of `maskOf` of the two arrays read. -/
theorem flushed3_eq (c : Dev nD) (t : Fin cfg0.N) :
    (dat0 V c).flushed 3 t = ((cfg0.win 3).blk t).view.read (Elt Ideal) (maskOf (V c main_v22) (V c main_arg1)) := by
  show (cfg0.win 3).cut (grid0.coords t) ((dat0 V c).after 3 t) = _
  rw [after0_3]
  unfold out0_3
  rw [View.canon_unit_zero hz]
  simp only [View.ld_unit_zero (S := S4000x32) hz]
  obtain ⟨e0, e1, e2, e3, -, -, e6, e7⟩ := idx_facts t
  funext y
  obtain ⟨r, u, rfl⟩ : ∃ (r : Fin 4000) (u : Fin 1), y = ix2 r u := ⟨y 0, y 1, eq_ix2 y⟩
  show k0_pay1 (F := Ideal) (iblk0 V c 0 t) (iblk0 V c 1 t) (ix2 r u)
    = maskOf (V c main_v22) (V c main_arg1) (((cfg0.win 3).blk t).view.emb (ix2 r u))
  refine (MaskBody.mask_apply (iblk0 V c 0 t) (iblk0 V c 1 t) r u).trans ?_
  have hr0 : ∀ k : Fin 32, ((cfg0.win 0).blk t).view.emb (ix2 r k) = colRowIx (((cfg0.win 3).blk t).view.emb (ix2 r u)) k := by
    intro k; funext a; apply Fin.ext
    match a with
    | ⟨0, _⟩ => show win0_0.index t (0 : Fin 2) * 4000 + 1 * r.val = win0_3.index t (0 : Fin 2) * 4000 + 1 * r.val; omega
    | ⟨1, _⟩ => show win0_0.index t (1 : Fin 2) * 32 + 1 * k.val = k.val; omega
  have hr1 : ∀ k : Fin 32, ((cfg0.win 1).blk t).view.emb (ix2 r k) = colRowIx (((cfg0.win 3).blk t).view.emb (ix2 r u)) k := by
    intro k; funext a; apply Fin.ext
    match a with
    | ⟨0, _⟩ => show win0_1.index t (0 : Fin 2) * 4000 + 1 * r.val = win0_3.index t (0 : Fin 2) * 4000 + 1 * r.val; omega
    | ⟨1, _⟩ => show win0_1.index t (1 : Fin 2) * 32 + 1 * k.val = k.val; omega
  exact mask_of_rows (V c main_v22) (V c main_arg1) (((cfg0.win 3).blk t).view.emb (ix2 r u))
    (fun k => ((cfg0.win 0).blk t).view.emb (ix2 r k)) (fun k => ((cfg0.win 1).blk t).view.emb (ix2 r k)) hr0 hr1

/-- An index of the mask column is in point `t`'s block iff each coordinate is in the block's range. -/
theorem mem_blk3 (t : Fin cfg0.N) (i : S1600000x1.Idx) :
    i ∈ ((cfg0.win 3).blk t).view.set ↔ ∀ a : Fin 2, win0_3.index t a * S4000x1.size a ≤ (i a).val ∧ (i a).val < win0_3.index t a * S4000x1.size a + S4000x1.size a := by
  show i ∈ ((View.whole main_v23_1).slice (win0_3.rect t)).set ↔ _
  rw [View.set_slice_whole, Rect.mem_set_unit]
  exact Iff.rfl

/-- The 400 blocks cover the mask column. -/
theorem cover3 (i : S1600000x1.Idx) : ∃ t : Fin cfg0.N, (cfg0.win 3).flush t = true ∧ i ∈ ((cfg0.win 3).blk t).view.set := by
  have hi0 : (i 0).val < 1600000 := (i 0).isLt
  have hi1 : (i 1).val < 1 := (i 1).isLt
  have hN : cfg0.N = 400 := N_0
  refine ⟨⟨(i 0).val / 4000, by rw [hN]; omega⟩, flush0_3 _, ?_⟩
  rw [mem_blk3]
  obtain ⟨-, -, -, -, -, -, e6, e7⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e6]; show (i 0).val / 4000 * 4000 ≤ (i 0).val ∧ (i 0).val < (i 0).val / 4000 * 4000 + 4000; omega
  | ⟨1, _⟩ =>
    show win0_3.index _ (1 : Fin 2) * 1 ≤ (i 1).val ∧ (i 1).val < win0_3.index _ (1 : Fin 2) * 1 + 1
    rw [e7]; omega

/-- THE MASK COLUMN after the region: `maskOf` of the gathered means and the edge features as the region finds them. -/
theorem final3 (c : Dev nD) : (dat0 V c).arrAt 3 cfg0.N = maskOf (V c main_v22) (V c main_arg1) :=
  (dat0 V c).arrAt_eq_of_cover 3 (maskOf (V c main_v22) (V c main_arg1)) (fun t _ => flushed3_eq V c t) cover3

end Cert.KernelIdeal.MaskArrays

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«108021_j48077863911783_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.MatmulBody.lean ====
/-
  The second kernel's body, read at an index.

  The body loads a block `a` of 5000 rows of node features (128 wide), the block `g` of the same rows of aggregated edge
  features (32 wide) and the two weight matrices `wh` (128 × 128) and `we` (32 × 128), and stores
  `a · wh + g · we`.  A change of float format is the identity on extended reals and a product into a zero accumulator is
  the plain contraction, so entry `(p, q)` of the stored block is `∑ₖ a(p,k) · wh(k,q) + ∑ₖ g(p,k) · we(k,q)`.
-/
import proofs.«108021_j48077863911783_2_alg».proof.Proof.Gen.KernelIdeal.Skeleton
import proofs.«108021_j48077863911783_2_alg».proof.Proof.LibMatmul2
import Idealize.ShloMosaic.Lib.Pipeline.Value
import Idealize.ShloMosaic.Lib.ValueIdx

noncomputable section

open scoped BigOperators

namespace Cert.KernelIdeal.MatmulBody

open Cert.KernelIdeal Cert.KernelIdeal.Gen Idealize.ShloMosaic Idealize.ShloMosaic.ValueIdx

/-- In the node-feature product the left operand's row is the result's row. -/
theorem lhs_h (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- In the node-feature product the right operand's column is the result's column. -/
theorem rhs_h (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- In the edge-feature product the left operand's row is the result's row. -/
theorem lhs_e (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide),
    dif_pos (show (0 : Fin S5000x32.rank) ∈ dot_S5000x32_S32x128_S5000x128_1_0_0_1_n_n.lhsNonContracting by decide)]
  rfl

/-- In the edge-feature product the right operand's column is the result's column. -/
theorem rhs_e (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide),
    dif_pos (show (1 : Fin S32x128.rank) ∈ dot_S5000x32_S32x128_S5000x128_1_0_0_1_n_n.rhsNonContracting by decide)]
  rfl

/-- The sum of the two products of blocks, at `(p, q)`. -/
theorem prod_apply (a : FVec Ideal S5000x128 .f32) (g : FVec Ideal S5000x32 .f32) (wh : FVec Ideal S128x128 .f32)
    (we : FVec Ideal S32x128 .f32) (p : Fin 5000) (q : Fin 128) :
    addf (matmul dot_S5000x128_S128x128_S5000x128_1_0_0_1_n_n none (truncf .bf16 a bitsLt_bf16_f32) (truncf .bf16 wh bitsLt_bf16_f32)
            (constant (F := Ideal) S5000x128 .f32 0x00000000#32))
         (matmul dot_S5000x32_S32x128_S5000x128_1_0_0_1_n_n none (truncf .bf16 g bitsLt_bf16_f32) (truncf .bf16 we bitsLt_bf16_f32)
            (constant (F := Ideal) S5000x128 .f32 0x00000000#32)) (ix2 p q)
      = (∑ k : Fin 128, a (ix2 p k) * wh (ix2 k q)) + ∑ k : Fin 32, g (ix2 p k) * we (ix2 k q) :=
  congrArg₂ (· + ·)
    (LibMatmul2.matmul_zero_apply dot_S5000x128_S128x128_S5000x128_1_0_0_1_n_n rfl rfl rfl rfl lhs_h rhs_h none
      (truncf .bf16 a bitsLt_bf16_f32) (truncf .bf16 wh bitsLt_bf16_f32) p q)
    (LibMatmul2.matmul_zero_apply dot_S5000x32_S32x128_S5000x128_1_0_0_1_n_n rfl rfl rfl rfl lhs_e rhs_e none
      (truncf .bf16 g bitsLt_bf16_f32) (truncf .bf16 we bitsLt_bf16_f32) p q)

/-- The block the body stores, at `(p, q)`. -/
theorem out_apply (v0 : Vec Ideal S5000x128 .f32) (v2 : Vec Ideal S5000x32 .f32) (v5 : Vec Ideal S128x128 .f32)
    (v8 : Vec Ideal S32x128 .f32) (p : Fin 5000) (q : Fin 128) :
    k1_pay1 (F := Ideal) v0 v2 v5 v8 (ix2 p q)
      = (∑ k : Fin 128, v0 (ix2 p k) * v5 (ix2 k q)) + ∑ k : Fin 32, v2 (ix2 p k) * v8 (ix2 k q) := by
  have e2 : shapeCast S5000x32 v2 shapeCasts_S5000x32_S5000x32 = v2 := shapeCast_self v2 _
  have e5 : shapeCast S128x128 v5 shapeCasts_S128x128_S128x128 = v5 := shapeCast_self v5 _
  have e8 : shapeCast S32x128 v8 shapeCasts_S32x128_S32x128 = v8 := shapeCast_self v8 _
  refine (prod_apply v0 (shapeCast S5000x32 v2 shapeCasts_S5000x32_S5000x32) (shapeCast S128x128 v5 shapeCasts_S128x128_S128x128)
    (shapeCast S32x128 v8 shapeCasts_S32x128_S32x128) p q).trans ?_
  rw [e2, e5, e8]

end Cert.KernelIdeal.MatmulBody

end
-- ==== Proof.Affine.lean ====
/-
  The node update as a whole-array function: `A · Wh + G · We`, for node features `A` (50000 × 128), aggregated edge
  features `G` (50000 × 32) and the two weight matrices `Wh` (128 × 128), `We` (32 × 128), entry by entry.
-/
import Idealize.ShloMosaic.PureOps.Ideal
import Idealize.ShloMosaic.Lib.ValueIdx

noncomputable section

open scoped BigOperators

namespace Cert.Affine

open Idealize.ShloMosaic

abbrev SN128 : Shape := ⟨2, ![50000, 128]⟩
abbrev SN32 : Shape := ⟨2, ![50000, 32]⟩
abbrev SH : Shape := ⟨2, ![128, 128]⟩
abbrev SEw : Shape := ⟨2, ![32, 128]⟩

/-- Entry `k` of the row of the node features that a result index lies in. -/
abbrev rowA (i : SN128.Idx) (k : Fin 128) : SN128.Idx := fun a => match a with
  | ⟨0, _⟩ => ⟨(i 0).val, (i 0).isLt⟩
  | ⟨1, _⟩ => ⟨k.val, k.isLt⟩
/-- Entry `k` of the row of the aggregated edge features that a result index lies in. -/
abbrev rowG (i : SN128.Idx) (k : Fin 32) : SN32.Idx := fun a => match a with
  | ⟨0, _⟩ => ⟨(i 0).val, (i 0).isLt⟩
  | ⟨1, _⟩ => ⟨k.val, k.isLt⟩
/-- Entry `k` of the column of the node weights that a result index lies in. -/
abbrev colH (i : SN128.Idx) (k : Fin 128) : SH.Idx := fun a => match a with
  | ⟨0, _⟩ => ⟨k.val, k.isLt⟩
  | ⟨1, _⟩ => ⟨(i 1).val, (i 1).isLt⟩
/-- Entry `k` of the column of the edge weights that a result index lies in. -/
abbrev colE (i : SN128.Idx) (k : Fin 32) : SEw.Idx := fun a => match a with
  | ⟨0, _⟩ => ⟨k.val, k.isLt⟩
  | ⟨1, _⟩ => ⟨(i 1).val, (i 1).isLt⟩

/-- The shape of the stacked weights `W` (128 × 160): its first 128 columns act on the node features, its last 32 on the
    aggregated edge features. -/
abbrev SW : Shape := ⟨2, ![128, 160]⟩
/-- The entry of `W` that multiplies node feature `k` in the result's column. -/
abbrev wcolH (i : SN128.Idx) (k : Fin 128) : SW.Idx := fun a => match a with
  | ⟨0, _⟩ => ⟨(i 1).val, (i 1).isLt⟩
  | ⟨1, _⟩ => ⟨k.val, by show k.val < 160; have := k.isLt; omega⟩
/-- The entry of `W` that multiplies aggregated edge feature `k` in the result's column. -/
abbrev wcolE (i : SN128.Idx) (k : Fin 32) : SW.Idx := fun a => match a with
  | ⟨0, _⟩ => ⟨(i 1).val, (i 1).isLt⟩
  | ⟨1, _⟩ => ⟨128 + k.val, by show 128 + k.val < 160; have := k.isLt; omega⟩

/-- `A · Wh + G · We`, entry by entry. -/
def affineOf (A : FVec Ideal SN128 .f32) (G : FVec Ideal SN32 .f32) (Wh : FVec Ideal SH .f32)
    (We : FVec Ideal SEw .f32) : FVec Ideal SN128 .f32 := fun i =>
  (∑ k : Fin 128, A (rowA i k) * Wh (colH i k)) + ∑ k : Fin 32, G (rowG i k) * We (colE i k)

/-- The two sums of products over a row of `A`, a row of `G` and a column of each weight matrix are the node update at an
    index `i`, when those are `i`'s rows and columns. -/
theorem affine_of_rows (A : FVec Ideal SN128 .f32) (G : FVec Ideal SN32 .f32) (Wh : FVec Ideal SH .f32) (We : FVec Ideal SEw .f32)
    (i : SN128.Idx) (a : Fin 128 → SN128.Idx) (g : Fin 32 → SN32.Idx) (wh : Fin 128 → SH.Idx) (we : Fin 32 → SEw.Idx)
    (ha : ∀ k, a k = rowA i k) (hg : ∀ k, g k = rowG i k) (hwh : ∀ k, wh k = colH i k) (hwe : ∀ k, we k = colE i k) :
    (∑ k : Fin 128, A (a k) * Wh (wh k)) + ∑ k : Fin 32, G (g k) * We (we k) = affineOf A G Wh We i := by
  unfold affineOf
  simp only [ha, hg, hwh, hwe]

/-- A sum over 160 terms is the sum of its first 128 and its last 32. -/
theorem sum_split (f : Fin 160 → EReal) :
    ∑ k : Fin 160, f k = (∑ k : Fin 128, f ⟨k.val, by have := k.isLt; omega⟩) + ∑ k : Fin 32, f ⟨128 + k.val, by have := k.isLt; omega⟩ :=
  Fin.sum_univ_add (a := 128) (b := 32) (f : Fin (128 + 32) → EReal)

end Cert.Affine

end
-- ==== Proof.MatmulArrays.lean ====
/-
  The second region's result array as a whole-array function of the arrays the region finds.

  The region walks 10 blocks of 5000 nodes.  Point `t` reads rows `5000 t … 5000 t + 4999` of the node features `A` and of
  the aggregated edge features `G`, and the two weight matrices `Wh`, `We` whole, and writes back the same rows of
  `A · Wh + G · We`.  Row `p` of a matrix product depends on row `p` of the left operand only, so block `t` of the result is
  block `t` of ONE function of the four arrays; the 10 blocks tile the result, so it ends as that function.
-/
import proofs.«108021_j48077863911783_2_alg».proof.Proof.Gen.KernelIdeal.Frame
import proofs.«108021_j48077863911783_2_alg».proof.Proof.MatmulBody
import proofs.«108021_j48077863911783_2_alg».proof.Proof.Affine
import Idealize.ShloMosaic.Lib.Pipeline.Value
import Idealize.ShloMosaic.Lib.ValueIdx

set_option maxRecDepth 16384

noncomputable section

open scoped BigOperators

namespace Cert.KernelIdeal.MatmulArrays

open Idealize.ShloMosaic Idealize.ShloMosaic.TcCoe Idealize.SL.Sem Idealize.ShloMosaic.ValueIdx
open Idealize.ShloMosaic.Pipeline (Dat)
open Cert.KernelIdeal Cert.KernelIdeal.Gen Cert.Affine

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`; the weights at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `affineOf` of the four arrays read. -/
theorem flushed4_eq (c : Dev nD) (t : Fin cfg1.N) :
    (dat1 V c).flushed 4 t = ((cfg1.win 4).blk t).view.read (Elt Ideal)
      (affineOf (V c main_arg0) (V c main_v39) (V c main_v41) (V c main_v43)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x32) hz, View.ld_unit_zero (S := S128x128) hz,
    View.ld_unit_zero (S := S32x128) hz]
  obtain ⟨e0, e1, e2, e3, e4, e5, e6, e7, e8, e9⟩ := idx_facts t
  funext y
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 3 t) (ix2 p q)
    = affineOf (V c main_arg0) (V c main_v39) (V c main_v41) (V c main_v43) (((cfg1.win 4).blk t).view.emb (ix2 p q))
  refine (MatmulBody.out_apply (iblk1 V c 0 t) (iblk1 V c 1 t) (iblk1 V c 2 t) (iblk1 V c 3 t) p q).trans ?_
  have h0 : ∀ k : Fin 128, ((cfg1.win 0).blk t).view.emb (ix2 p k) = rowA (((cfg1.win 4).blk t).view.emb (ix2 p q)) k := by
    intro k; funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have h1 : ∀ k : Fin 32, ((cfg1.win 1).blk t).view.emb (ix2 p k) = rowG (((cfg1.win 4).blk t).view.emb (ix2 p q)) k := by
    intro k; funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 32 + 1 * k.val = k.val; omega
  have h2 : ∀ k : Fin 128, ((cfg1.win 2).blk t).view.emb (ix2 k q) = colH (((cfg1.win 4).blk t).view.emb (ix2 p q)) k := by
    intro k; funext a; apply Fin.ext
    match a with
    | ⟨0, _⟩ => show win1_2.index t (0 : Fin 2) * 128 + 1 * k.val = k.val; omega
    | ⟨1, _⟩ => show win1_2.index t (1 : Fin 2) * 128 + 1 * q.val = win1_4.index t (1 : Fin 2) * 128 + 1 * q.val; omega
  have h3 : ∀ k : Fin 32, ((cfg1.win 3).blk t).view.emb (ix2 k q) = colE (((cfg1.win 4).blk t).view.emb (ix2 p q)) k := by
    intro k; funext a; apply Fin.ext
    match a with
    | ⟨0, _⟩ => show win1_3.index t (0 : Fin 2) * 32 + 1 * k.val = k.val; omega
    | ⟨1, _⟩ => show win1_3.index t (1 : Fin 2) * 128 + 1 * q.val = win1_4.index t (1 : Fin 2) * 128 + 1 * q.val; omega
  exact affine_of_rows (V c main_arg0) (V c main_v39) (V c main_v41) (V c main_v43) (((cfg1.win 4).blk t).view.emb (ix2 p q))
    (fun k => ((cfg1.win 0).blk t).view.emb (ix2 p k)) (fun k => ((cfg1.win 1).blk t).view.emb (ix2 p k))
    (fun k => ((cfg1.win 2).blk t).view.emb (ix2 k q)) (fun k => ((cfg1.win 3).blk t).view.emb (ix2 k q)) h0 h1 h2 h3

/-- An index of the result array is in point `t`'s block iff each coordinate is in the block's range. -/
theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- The 10 blocks cover the result: row `p` lies in block `p / 5000`. -/
theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_4 _, ?_⟩
  rw [mem_blk4]
  obtain ⟨-, -, -, -, -, -, -, -, e8, e9⟩ := idx_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e9]; omega

/-- THE RESULT after the region: `affineOf` of the four arrays as the region finds them. -/
theorem final4 (c : Dev nD) : (dat1 V c).arrAt 4 cfg1.N
    = affineOf (V c main_arg0) (V c main_v39) (V c main_v41) (V c main_v43) :=
  (dat1 V c).arrAt_eq_of_cover 4 (affineOf (V c main_arg0) (V c main_v39) (V c main_v41) (V c main_v43))
    (fun t _ => flushed4_eq V c t) cover4

end Cert.KernelIdeal.MatmulArrays

end
-- ==== Proof.RefMask.lean ====
/-
  The reference's mask, read at an index.

  The reference forms, per edge `e`, the sums `∑ hₖ eₖ`, `∑ hₖ²`, `∑ eₖ²` over the edge's row of the gathered means and of
  the edge features (each host sum starts from the zero word, which is the extended real 0), the quotient of the first by
  the product of the square roots of the other two, and converts the bit "quotient < 1/2" to a float.  So the reference's
  mask vector is the cosine mask of each row, and its masked features are each entry times its row's mask: the same two
  whole-array functions the kernel's first region leaves.
-/
import proofs.«108021_j48077863911783_2_alg».proof.Proof.RefRead
import proofs.«108021_j48077863911783_2_alg».proof.Proof.CosMask
import Idealize.ShloMosaic.Lib.Pipeline.Value
import Idealize.ShloMosaic.Lib.ValueIdx

noncomputable section

open scoped BigOperators

namespace Cert.ReferenceIdeal.MaskRef

open Cert.ReferenceIdeal Cert.ReferenceIdeal.Gen Cert.ReferenceIdeal.ReadP Idealize.ShloMosaic Idealize.ShloMosaic.ValueIdx Cert.CosMask

variable (x1 : (⟨S1600000x32, .f32⟩ : BufTy).Contents (Elt Ideal)) (x2 : (⟨S1600000, .i32⟩ : BufTy).Contents (Elt Ideal))

/-- The zero word is the extended real 0. -/
theorem zero_word : FloatOps.ofBits (F := Ideal) .f32 0x00000000#32 = 0 := Ideal.ofBits_zero_f32

/-- The numerator: the row's sum of products of gathered mean and edge feature. -/
theorem num_apply (e : S1600000.Idx) :
    val_main_v24 (F := Ideal) x1 x2 e = ∑ k : Fin 32, val_main_v22 (F := Ideal) x1 x2 (idx_main_v24 e k) * x1 (idx_main_v24 e k) := by
  refine (val_main_v24_apply x1 x2 e).trans ?_
  rw [val_main_cst_6_apply, zero_word, zero_add]
  exact Finset.sum_congr rfl fun k _ => val_main_v23_apply x1 x2 _

/-- The gathered mean's row sum of squares. -/
theorem hsq_apply (e : S1600000.Idx) :
    val_main_call1_v1 (F := Ideal) x1 x2 e
      = ∑ k : Fin 32, val_main_v22 (F := Ideal) x1 x2 (idx_main_v24 e k) * val_main_v22 (F := Ideal) x1 x2 (idx_main_v24 e k) := by
  refine (val_main_call1_v1_apply x1 x2 e).trans ?_
  rw [val_main_call1_cst_apply, zero_word, zero_add]
  exact Finset.sum_congr rfl fun k _ => val_main_call1_v0_apply x1 x2 _

/-- The edge features' row sum of squares. -/
theorem esq_apply (e : S1600000.Idx) :
    val_main_call2_v1 (F := Ideal) x1 e = ∑ k : Fin 32, x1 (idx_main_v24 e k) * x1 (idx_main_v24 e k) := by
  refine (val_main_call2_v1_apply x1 e).trans ?_
  rw [val_main_call2_cst_apply, zero_word, zero_add]
  exact Finset.sum_congr rfl fun k _ => val_main_call2_v0_apply x1 _

/-- The reference's mask of edge `e`: the cosine mask of the edge's two rows. -/
theorem mask_apply (e : S1600000.Idx) :
    val_main_v31 (F := Ideal) x1 x2 e
      = rowMask (fun k => val_main_v22 (F := Ideal) x1 x2 (idx_main_v24 e k)) (fun k => x1 (idx_main_v24 e k)) := by
  rw [val_main_v31_apply, val_main_v30_apply, val_main_v28_apply, val_main_v27_apply, val_main_v25_apply, val_main_v26_apply,
    val_main_v29_apply, val_main_cst_7_apply, num_apply, hsq_apply, esq_apply]
  unfold rowMask
  simp only [Ideal.hostDivf_def, Ideal.mulf_def, Ideal.hostUnary_sqrt_def, Ideal.ofBits_def]

/-- The reference's masked features are `maskedOf` of its gathered means and the edge features. -/
theorem masked_eq : val_main_v34 (F := Ideal) x1 x2 = maskedOf (val_main_v22 (F := Ideal) x1 x2) x1 := by
  funext i
  show x1 i * val_main_v33 (F := Ideal) x1 x2 i = x1 i * rowMask _ _
  rw [val_main_v33_apply, val_main_v32_apply, mask_apply]
  have hi : ∀ k : Fin 32, idx_main_v24 (idx_main_v32 (idx_main_v33 i)) k = rowIx i k := fun k =>
    funext fun a => Fin.ext (by match a with | ⟨0, _⟩ => rfl | ⟨1, _⟩ => rfl)
  simp only [hi]

/-- The reference's mask vector is the mask column `maskOf` flattened. -/
theorem mask_eq (h : (⟨2, ![1600000, 1]⟩ : Shape).ShapeCasts ⟨1, ![1600000]⟩) :
    shapeCast (⟨1, ![1600000]⟩ : Shape) (maskOf (val_main_v22 (F := Ideal) x1 x2) x1) h = val_main_v31 (F := Ideal) x1 x2 := by
  funext e
  refine (shapeCast_apply _ h e (fun a => match a with | ⟨0, _⟩ => ⟨(e 0).val, (e 0).isLt⟩ | ⟨1, _⟩ => ⟨0, Nat.one_pos⟩) ?_).trans ?_
  · rw [Shape.rowMajor_val_two, Shape.rowMajor_val_one]
    show (e 0).val * 1 + 0 = (e 0).val
    omega
  · rw [mask_apply]
    show rowMask _ _ = rowMask _ _
    have hi : ∀ k : Fin 32, colRowIx (fun a => match a with | ⟨0, _⟩ => ⟨(e 0).val, (e 0).isLt⟩ | ⟨1, _⟩ => ⟨0, Nat.one_pos⟩) k = idx_main_v24 e k := fun k =>
      funext fun a => Fin.ext (by match a with | ⟨0, _⟩ => rfl | ⟨1, _⟩ => rfl)
    simp only [hi]

end Cert.ReferenceIdeal.MaskRef

end
-- ==== Proof.RefAffine.lean ====
/-
  The reference's result, read at an index.

  The reference stacks the node features and the aggregated edge features side by side into a `[50000, 160]` array and
  multiplies it by the transposed stacked weights.  Entry `(p, q)` is a sum of 160 products; its first 128 terms pair
  node feature `k` of row `p` with `W (q, k)`, its last 32 pair aggregated edge feature `k` with `W (q, 128 + k)`.  A finite sum
  of extended reals splits into consecutive parts (addition is commutative and associative there), so the result is
  `A · Wh + G · We` for any `Wh`, `We` holding those entries of `W`.
-/
import proofs.«108021_j48077863911783_2_alg».proof.Proof.RefRead
import proofs.«108021_j48077863911783_2_alg».proof.Proof.Affine
import Idealize.ShloMosaic.Lib.Pipeline.Value
import Idealize.ShloMosaic.Lib.ValueIdx

noncomputable section

open scoped BigOperators

namespace Cert.ReferenceIdeal.AffineRef

open Cert.ReferenceIdeal Cert.ReferenceIdeal.Gen Cert.ReferenceIdeal.ReadP Idealize.ShloMosaic Idealize.ShloMosaic.ValueIdx Cert.Affine

variable (x0 : (⟨S50000x128, .f32⟩ : BufTy).Contents (Elt Ideal)) (x1 : (⟨S1600000x32, .f32⟩ : BufTy).Contents (Elt Ideal))
  (x2 : (⟨S1600000, .i32⟩ : BufTy).Contents (Elt Ideal)) (x3 : (⟨S128x160, .f32⟩ : BufTy).Contents (Elt Ideal))

/-- The stacked array at one of its first 128 columns is the node features. -/
theorem stacked_left (i : S50000x128.Idx) (k : Fin 128) :
    val_main_v50 (F := Ideal) x0 x1 x2 (lidx_main_v52 i ⟨k.val, by have := k.isLt; omega⟩) = x0 (rowA i k) := by
  unfold val_main_v50
  refine concatenate_pair_apply_left (t := S50000x160) (s₁ := S50000x128) (s₂ := S50000x32) (1 : Fin 2) x0 (val_main_v49 (F := Ideal) x1 x2) concatenates_S50000x128_S50000x32_S50000x160_d1 _ rfl
    (rowA i k) fun b => ?_
  match b with
  | ⟨0, _⟩ => rfl
  | ⟨1, _⟩ => rfl

/-- The stacked array at one of its last 32 columns is the aggregated edge features. -/
theorem stacked_right (i : S50000x128.Idx) (k : Fin 32) :
    val_main_v50 (F := Ideal) x0 x1 x2 (lidx_main_v52 i ⟨128 + k.val, by have := k.isLt; omega⟩)
      = val_main_v49 (F := Ideal) x1 x2 (rowG i k) := by
  unfold val_main_v50
  refine concatenate_pair_apply_right (t := S50000x160) (s₁ := S50000x128) (s₂ := S50000x32) (1 : Fin 2) x0 (val_main_v49 (F := Ideal) x1 x2) concatenates_S50000x128_S50000x32_S50000x160_d1 _ rfl rfl
    (rowG i k) (fun b hb => ?_) ?_
  · match b with
    | ⟨0, _⟩ => rfl
    | ⟨1, _⟩ => exact absurd rfl hb
  · show k.val + 128 = 128 + k.val
    omega

/-- The reference's result is `A · Wh + G · We` for weight pieces holding the matching entries of the stacked weights. -/
theorem result_eq (Wh : FVec Ideal SH .f32) (We : FVec Ideal SEw .f32)
    (hWh : ∀ (i : SN128.Idx) (k : Fin 128), Wh (colH i k) = x3 (wcolH i k))
    (hWe : ∀ (i : SN128.Idx) (k : Fin 32), We (colE i k) = x3 (wcolE i k)) :
    val_main_v52 (F := Ideal) x0 x1 x2 x3 = affineOf x0 (val_main_v49 (F := Ideal) x1 x2) Wh We := by
  funext i
  rw [val_main_v52_apply, sum_split]
  unfold affineOf
  refine congrArg₂ (· + ·) (Finset.sum_congr rfl fun k _ => ?_) (Finset.sum_congr rfl fun k _ => ?_)
  · rw [stacked_left, val_main_v51_apply, hWh]
    refine congrArg (fun z => x0 (rowA i k) * x3 z) (funext fun a => Fin.ext ?_)
    match a with
    | ⟨0, _⟩ => rfl
    | ⟨1, _⟩ => rfl
  · rw [stacked_right, val_main_v51_apply, hWe]
    refine congrArg (fun z => val_main_v49 (F := Ideal) x1 x2 (rowG i k) * x3 z) (funext fun a => Fin.ext ?_)
    match a with
    | ⟨0, _⟩ => rfl
    | ⟨1, _⟩ => rfl

end Cert.ReferenceIdeal.AffineRef

end
-- ==== Proof.KernelValue.lean ====
/-
  The idealized kernel's result as a function of the argument arrays: the reference's.

  The program runs a stretch of host operations (the per-node mean of incoming edge features and its gather back to the
  edges), the first kernel region (the cosine mask and the masked features), a second stretch (the masked mean per node,
  falling back to the plain mean where no edge passes, and the two pieces of the weights), and the second kernel region
  (the two products).  The first stretch is, operation for operation, the reference's; the first region leaves the
  reference's masked features and mask; so the second stretch computes the reference's aggregated features, and the second
  region `A · Wh + G · We`, which is the reference's product with the stacked weights.
-/
import proofs.«108021_j48077863911783_2_alg».proof.Proof.Gen.KernelIdeal.Frame
import proofs.«108021_j48077863911783_2_alg».proof.Proof.KernelStretch
import proofs.«108021_j48077863911783_2_alg».proof.Proof.MaskArrays
import proofs.«108021_j48077863911783_2_alg».proof.Proof.MatmulArrays
import proofs.«108021_j48077863911783_2_alg».proof.Proof.RefMask
import proofs.«108021_j48077863911783_2_alg».proof.Proof.RefAffine
import Idealize.ShloMosaic.Lib.StableHlo.Run
import Idealize.ShloMosaic.Lib.Pipeline.Value

set_option maxRecDepth 16384

noncomputable section

open scoped BigOperators

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen Cert.CosMask Cert.Affine
open Cert.ReferenceIdeal.ReadP (val_main_v15 val_main_v22 val_main_v31 val_main_v34 val_main_v49 val_main_v52)

variable (m : (ℓ : Loc nD τ sig) → Buf (Elt Ideal) ℓ) (ρ : Dev nD → PrngReg) (c : Dev nD)

/-- The four argument arrays as launched. -/
abbrev X0 : FVec Ideal S50000x128 .f32 := m ((c.tc : Thread nD τ).loc main_arg0)
abbrev X1 : FVec Ideal S1600000x32 .f32 := m ((c.tc : Thread nD τ).loc main_arg1)
abbrev X2 : IVec S1600000 32 := m ((c.tc : Thread nD τ).loc main_arg2)
abbrev X3 : FVec Ideal S128x160 .f32 := m ((c.tc : Thread nD τ).loc main_arg3)

/-! ## The first region's entry: the first stretch is the reference's -/

/-- The four arguments are untouched up to the first region. -/
theorem entry_nodes : (W3 m ρ c (Proc.devRef .tc main_arg0) : FVec Ideal S50000x128 .f32) = X0 m c := by
  show StableHlo.after hostOps0_2 (W2 m ρ c) _ = _
  rw [s3_arg0]; show StableHlo.after hostOps0_1 (W1 m ρ c) _ = _
  rw [s2_arg0]; show StableHlo.after hostOps0 (W0 m ρ c) _ = _
  rw [s1_arg0]
theorem entry_edges : (W3 m ρ c (Proc.devRef .tc main_arg1) : FVec Ideal S1600000x32 .f32) = X1 m c := by
  show StableHlo.after hostOps0_2 (W2 m ρ c) _ = _
  rw [s3_arg1]; show StableHlo.after hostOps0_1 (W1 m ρ c) _ = _
  rw [s2_arg1]; show StableHlo.after hostOps0 (W0 m ρ c) _ = _
  rw [s1_arg1]
theorem entry_dst : (W3 m ρ c (Proc.devRef .tc main_arg2) : IVec S1600000 32) = X2 m c := by
  show StableHlo.after hostOps0_2 (W2 m ρ c) _ = _
  rw [s3_arg2]; show StableHlo.after hostOps0_1 (W1 m ρ c) _ = _
  rw [s2_arg2]; show StableHlo.after hostOps0 (W0 m ρ c) _ = _
  rw [s1_arg2]
theorem entry_weights : (W3 m ρ c (Proc.devRef .tc main_arg3) : FVec Ideal S128x160 .f32) = X3 m c := by
  show StableHlo.after hostOps0_2 (W2 m ρ c) _ = _
  rw [s3_arg3]; show StableHlo.after hostOps0_1 (W1 m ρ c) _ = _
  rw [s2_arg3]; show StableHlo.after hostOps0 (W0 m ρ c) _ = _
  rw [s1_arg3]

/-- The per-node means before the first region are the reference's. -/
theorem entry_nodeMeans : (W3 m ρ c (Proc.devRef .tc main_v15) : FVec Ideal S50000x32 .f32) = val_main_v15 (F := Ideal) (X1 m c) (X2 m c) := by
  show StableHlo.after hostOps0_2 (W2 m ρ c) _ = _
  rw [s3_nodeMeans]; show StableHlo.after hostOps0_1 (W1 m ρ c) _ = _
  rw [s2_nodeMeans]
  rw [show W1 m ρ c (Proc.devRef .tc main_v9) = StableHlo.after hostOps0 (W0 m ρ c) (Proc.devRef .tc main_v9) from rfl, s1_gt,
    show W1 m ρ c (Proc.devRef .tc main_v14) = StableHlo.after hostOps0 (W0 m ρ c) (Proc.devRef .tc main_v14) from rfl, s1_mean,
    show W1 m ρ c (Proc.devRef .tc main_cst_4) = StableHlo.after hostOps0 (W0 m ρ c) (Proc.devRef .tc main_cst_4) from rfl, s1_zero]
  rfl

/-- The gathered means the first region reads are the reference's. -/
theorem entry_means : (W3 m ρ c (Proc.devRef .tc main_v22) : FVec Ideal S1600000x32 .f32) = val_main_v22 (F := Ideal) (X1 m c) (X2 m c) := by
  show StableHlo.after hostOps0_2 (W2 m ρ c) _ = _
  rw [s3_gather]
  have h15 : (W2 m ρ c (Proc.devRef .tc main_v15) : FVec Ideal S50000x32 .f32) = val_main_v15 (F := Ideal) (X1 m c) (X2 m c) :=
    (s3_nodeMeans (W2 m ρ c)).symm.trans (entry_nodeMeans m ρ c)
  have h2 : (W2 m ρ c (Proc.devRef .tc main_arg2) : IVec S1600000 32) = X2 m c :=
    (s3_arg2 (W2 m ρ c)).symm.trans (entry_dst m ρ c)
  rw [h15, h2]
  rfl

/-! ## The first region's exit -/

/-- The first region leaves the reference's masked features. -/
theorem exit_masked : (W4 m ρ c (Proc.devRef .tc main_v23_0) : FVec Ideal S1600000x32 .f32) = val_main_v34 (F := Ideal) (X1 m c) (X2 m c) := by
  refine (W4_arr m ρ c 2).trans ((MaskArrays.final2 (V3 m ρ) c).trans ?_)
  show maskedOf (W3 m ρ c (Proc.devRef .tc main_v22)) (W3 m ρ c (Proc.devRef .tc main_arg1)) = _
  rw [entry_means, entry_edges]
  exact (Cert.ReferenceIdeal.MaskRef.masked_eq (X1 m c) (X2 m c)).symm

/-- The first region leaves the mask column of the reference's gathered means and the edge features. -/
theorem exit_mask : (W4 m ρ c (Proc.devRef .tc main_v23_1) : FVec Ideal S1600000x1 .f32)
    = maskOf (val_main_v22 (F := Ideal) (X1 m c) (X2 m c)) (X1 m c) := by
  refine (W4_arr m ρ c 3).trans ((MaskArrays.final3 (V3 m ρ) c).trans ?_)
  show maskOf (W3 m ρ c (Proc.devRef .tc main_v22)) (W3 m ρ c (Proc.devRef .tc main_arg1)) = _
  rw [entry_means, entry_edges]

/-- Everything the region does not write is as it was entered. -/
theorem exit_dst : (W4 m ρ c (Proc.devRef .tc main_arg2) : IVec S1600000 32) = X2 m c :=
  (W4_of_ne m ρ c main_arg2 (by decide)).trans (entry_dst m ρ c)
theorem exit_nodeMeans : (W4 m ρ c (Proc.devRef .tc main_v15) : FVec Ideal S50000x32 .f32) = val_main_v15 (F := Ideal) (X1 m c) (X2 m c) :=
  (W4_of_ne m ρ c main_v15 (by decide)).trans (entry_nodeMeans m ρ c)
theorem exit_nodes : (W4 m ρ c (Proc.devRef .tc main_arg0) : FVec Ideal S50000x128 .f32) = X0 m c :=
  (W4_of_ne m ρ c main_arg0 (by decide)).trans (entry_nodes m ρ c)
theorem exit_weights : (W4 m ρ c (Proc.devRef .tc main_arg3) : FVec Ideal S128x160 .f32) = X3 m c :=
  (W4_of_ne m ρ c main_arg3 (by decide)).trans (entry_weights m ρ c)

/-! ## The second region's entry -/

/-- The aggregated features the second region reads are the reference's. -/
theorem entry_agg : (W7 m ρ c (Proc.devRef .tc main_v39) : FVec Ideal S50000x32 .f32) = val_main_v49 (F := Ideal) (X1 m c) (X2 m c) := by
  show StableHlo.after hostOps1_2 (W6 m ρ c) _ = _
  rw [t3_agg]; show StableHlo.after hostOps1_1 (W5 m ρ c) _ = _
  rw [t2_agg]
  rw [show W5 m ρ c (Proc.devRef .tc main_v33) = StableHlo.after hostOps1 (W4 m ρ c) (Proc.devRef .tc main_v33) from rfl, t1_pass,
    show W5 m ρ c (Proc.devRef .tc main_v38) = StableHlo.after hostOps1 (W4 m ρ c) (Proc.devRef .tc main_v38) from rfl, t1_mean,
    show W5 m ρ c (Proc.devRef .tc main_v15) = StableHlo.after hostOps1 (W4 m ρ c) (Proc.devRef .tc main_v15) from rfl, t1_nodeMeans,
    exit_masked, exit_mask, exit_dst, exit_nodeMeans,
    show shapeCast S1600000 (maskOf (val_main_v22 (F := Ideal) (X1 m c) (X2 m c)) (X1 m c)) shapeCasts_S1600000x1_S1600000 = val_main_v31 (F := Ideal) (X1 m c) (X2 m c)
      from Cert.ReferenceIdeal.MaskRef.mask_eq (X1 m c) (X2 m c) shapeCasts_S1600000x1_S1600000,
    pass_ref, mean_ref]
  exact agg_ref (X1 m c) (X2 m c)

/-- The node features the second region reads are the argument. -/
theorem entry2_nodes : (W7 m ρ c (Proc.devRef .tc main_arg0) : FVec Ideal S50000x128 .f32) = X0 m c := by
  show StableHlo.after hostOps1_2 (W6 m ρ c) _ = _
  rw [t3_arg0]; show StableHlo.after hostOps1_1 (W5 m ρ c) _ = _
  rw [t2_arg0]; show StableHlo.after hostOps1 (W4 m ρ c) _ = _
  rw [t1_arg0]
  exact exit_nodes m ρ c

/-- The stacked weights before the last four operations are the argument. -/
theorem mid_weights : (W6 m ρ c (Proc.devRef .tc main_arg3) : FVec Ideal S128x160 .f32) = X3 m c := by
  show StableHlo.after hostOps1_1 (W5 m ρ c) _ = _
  rw [t2_arg3]; show StableHlo.after hostOps1 (W4 m ρ c) _ = _
  rw [t1_arg3]
  exact exit_weights m ρ c

/-- The node-feature weights the second region reads: the first 128 columns of the stacked weights, transposed. -/
theorem entry2_wh : (W7 m ρ c (Proc.devRef .tc main_v41) : FVec Ideal S128x128 .f32)
    = transpose S128x128 [1, 0] (extractStridedSlice S128x128 ![0, 0] (X3 m c) slices_S128x160_S128x128_0_0) transposes_S128x128_S128x128_1_0 := by
  show StableHlo.after hostOps1_2 (W6 m ρ c) _ = _
  rw [t3_wh, mid_weights]

/-- The edge-feature weights the second region reads: the last 32 columns of the stacked weights, transposed. -/
theorem entry2_we : (W7 m ρ c (Proc.devRef .tc main_v43) : FVec Ideal S32x128 .f32)
    = transpose S32x128 [1, 0] (extractStridedSlice S128x32 ![0, 128] (X3 m c) slices_S128x160_S128x32_0_128) transposes_S128x32_S32x128_1_0 := by
  show StableHlo.after hostOps1_2 (W6 m ρ c) _ = _
  rw [t3_we, mid_weights]

/-! ## The two weight pieces hold the matching entries of the stacked weights -/

theorem wh_apply (x3 : FVec Ideal S128x160 .f32) (i : SN128.Idx) (k : Fin 128) :
    transpose S128x128 [1, 0] (extractStridedSlice S128x128 ![0, 0] x3 slices_S128x160_S128x128_0_0) transposes_S128x128_S128x128_1_0 (colH i k)
      = x3 (wcolH i k) := by
  refine (transpose_apply [1, 0] _ transposes_S128x128_S128x128_1_0 (colH i k)
    (fun a => match a with | ⟨0, _⟩ => ⟨(i 1).val, (i 1).isLt⟩ | ⟨1, _⟩ => ⟨k.val, k.isLt⟩) (fun b => ?_)).trans ?_
  · match b with
    | ⟨0, _⟩ => rfl
    | ⟨1, _⟩ => rfl
  · refine extractStridedSlice_apply _ x3 slices_S128x160_S128x128_0_0 _ (wcolH i k) fun a => ?_
    match a with
    | ⟨0, _⟩ => show (i 1).val = 0 + (i 1).val; omega
    | ⟨1, _⟩ => show k.val = 0 + k.val; omega

theorem we_apply (x3 : FVec Ideal S128x160 .f32) (i : SN128.Idx) (k : Fin 32) :
    transpose S32x128 [1, 0] (extractStridedSlice S128x32 ![0, 128] x3 slices_S128x160_S128x32_0_128) transposes_S128x32_S32x128_1_0 (colE i k)
      = x3 (wcolE i k) := by
  refine (transpose_apply [1, 0] _ transposes_S128x32_S32x128_1_0 (colE i k)
    (fun a => match a with | ⟨0, _⟩ => ⟨(i 1).val, (i 1).isLt⟩ | ⟨1, _⟩ => ⟨k.val, k.isLt⟩) (fun b => ?_)).trans ?_
  · match b with
    | ⟨0, _⟩ => rfl
    | ⟨1, _⟩ => rfl
  · refine extractStridedSlice_apply _ x3 slices_S128x160_S128x32_0_128 _ (wcolE i k) fun a => ?_
    match a with
    | ⟨0, _⟩ => show (i 1).val = 0 + (i 1).val; omega
    | ⟨1, _⟩ => show 128 + k.val = 128 + k.val; rfl

/-! ## The result -/

/-- THE KERNEL'S RESULT ARRAY after the run is the reference's result of the same arguments. -/
theorem result_eq : (W8 m ρ c (Proc.devRef .tc main_v44) : FVec Ideal S50000x128 .f32)
    = val_main_v52 (F := Ideal) (X0 m c) (X1 m c) (X2 m c) (X3 m c) := by
  refine (W8_arr m ρ c 4).trans ((MatmulArrays.final4 (V7 m ρ) c).trans ?_)
  show affineOf (W7 m ρ c (Proc.devRef .tc main_arg0)) (W7 m ρ c (Proc.devRef .tc main_v39)) (W7 m ρ c (Proc.devRef .tc main_v41))
      (W7 m ρ c (Proc.devRef .tc main_v43)) = _
  rw [entry2_nodes, entry_agg, entry2_wh, entry2_we]
  exact (Cert.ReferenceIdeal.AffineRef.result_eq (X0 m c) (X1 m c) (X2 m c) (X3 m c) _ _ (wh_apply (X3 m c)) (we_apply (X3 m c))).symm

end Cert.KernelIdeal.Glue

end
-- ==== Proof.RefRunValue.lean ====
/-
  The reference's run, read back: every weakly fair execution of the reference terminates with its result array at the
  last stage of its operations — the product of the stacked features with the transposed stacked weights — as a function
  of the four argument arrays, and the arguments unchanged.

  The program is a straight line of host operations, so its final memory is the fold of the operations' results over
  the launch memory.  The result is read through the fold in two steps: the product and the stacking first, which leaves
  the fold at the node features and at the aggregated features; then each of those on its own.
-/
import proofs.«108021_j48077863911783_2_alg».proof.Proof.RefRun
import proofs.«108021_j48077863911783_2_alg».proof.Proof.RefRead
import Idealize.ShloMosaic.Lib.StableHlo.Run

set_option maxRecDepth 16384

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The fold of the reference's operations at the result buffer is the last stage of the argument arrays (read at the launch
    contents of their buffers). -/
theorem result_eq (c : Dev nD) :
    after (ops (F := Ideal)) (launchContents m c) (Proc.devRef .tc main_v52)
      = val_main_v52 (F := Ideal) (launchContents m c (Proc.devRef .tc main_arg0)) (launchContents m c (Proc.devRef .tc main_arg1)) (launchContents m c (Proc.devRef .tc main_arg2)) (launchContents m c (Proc.devRef .tc main_arg3)) := by
  after_results_simp
  refine (congrArg₂ (fun (a : (⟨S50000x128, .f32⟩ : BufTy).Contents (Elt Ideal)) (b : (⟨S50000x32, .f32⟩ : BufTy).Contents (Elt Ideal)) =>
      ((fun l r => Host.dotGeneral (F := Ideal) dot_S50000x160_S160x128_S50000x128_1_0_0_1_n_n none l r) :
          (⟨S50000x160, .f32⟩ : BufTy).Contents (Elt Ideal) → (⟨S160x128, .f32⟩ : BufTy).Contents (Elt Ideal) → (⟨S50000x128, .f32⟩ : BufTy).Contents (Elt Ideal))
        (((fun a b => concatenate S50000x160 1 [⟨S50000x128, a⟩, ⟨S50000x32, b⟩] concatenates_S50000x128_S50000x32_S50000x160_d1) :
          (⟨S50000x128, .f32⟩ : BufTy).Contents (Elt Ideal) → (⟨S50000x32, .f32⟩ : BufTy).Contents (Elt Ideal) → (⟨S50000x160, .f32⟩ : BufTy).Contents (Elt Ideal)) a b)
        (((transpose S160x128 [1, 0] · transposes_S128x160_S160x128_1_0) :
          (⟨S128x160, .f32⟩ : BufTy).Contents (Elt Ideal) → (⟨S160x128, .f32⟩ : BufTy).Contents (Elt Ideal)) (launchContents m c (Proc.devRef .tc main_arg3))))
      (?hA : _ = (launchContents m c (Proc.devRef .tc main_arg0)))
      (?hB : _ = val_main_v49 (F := Ideal) (launchContents m c (Proc.devRef .tc main_arg1)) (launchContents m c (Proc.devRef .tc main_arg2)))).trans ?_
  case hA =>
    after_results_simp
  case hB =>
    after_results_simp
    unfold val_main_v49 val_main_call3_v0 val_main_v48 val_main_v47 val_main_v46 val_main_v45 val_main_v44 val_main_cst_11 val_main_v43 val_main_v42 val_main_cst_10 val_main_v41 val_main_v40 val_main_v39 val_main_v38 val_main_cst_9 val_main_v37 val_main_v36 val_main_v35 val_main_cst_8 val_main_v34 val_main_v33 val_main_v32 val_main_v31 val_main_v30 val_main_v29 val_main_cst_7 val_main_v28 val_main_v27 val_main_v26 val_main_call2_v1 val_main_call2_cst val_main_call2_v0 val_main_v25 val_main_call1_v1 val_main_call1_cst val_main_call1_v0 val_main_v24 val_main_cst_6 val_main_v23 val_main_v22 val_main_v21 val_main_v20 val_main_v19 val_main_v18 val_main_c_5 val_main_v17 val_main_v16 val_main_c val_main_v15 val_main_call0_v2 val_main_call0_v1 val_main_call0_v0 val_main_cst_4 val_main_v14 val_main_v13 val_main_v12 val_main_v11 val_main_v10 val_main_cst_3 val_main_v9 val_main_v8 val_main_cst_2 val_main_v7 val_main_v6 val_main_v5 val_main_v4 val_main_cst_1 val_main_v3 val_main_v2 val_main_v1 val_main_cst_0 val_main_v0 val_main_cst
    rfl
  · unfold val_main_v52 val_main_v50 val_main_v51
    rfl

/-- The fold at an argument buffer is the argument. -/
theorem kept (c : Dev nD) :
    after (ops (F := Ideal)) (launchContents m c) (Proc.devRef .tc main_arg0) = m ((c.tc : Thread nD τ).loc main_arg0)
    ∧ after (ops (F := Ideal)) (launchContents m c) (Proc.devRef .tc main_arg1) = m ((c.tc : Thread nD τ).loc main_arg1)
    ∧ after (ops (F := Ideal)) (launchContents m c) (Proc.devRef .tc main_arg2) = m ((c.tc : Thread nD τ).loc main_arg2)
    ∧ after (ops (F := Ideal)) (launchContents m c) (Proc.devRef .tc main_arg3) = m ((c.tc : Thread nD τ).loc main_arg3) := by
  refine ⟨?_, ?_, ?_, ?_⟩ <;> after_results_simp <;> rfl

/-- On every device, from any memory with zero counters: every weakly fair execution of the reference terminates with
    its result at the last stage of the argument arrays and the arguments unchanged. -/
theorem run : θ_run defs (onTc (τ := τ) (main (F := Ideal))) ⟨m, fun _ => 0, ρ⟩ fun r => ∀ c : Dev nD,
      r.2.mem ((c.tc : Thread nD τ).loc main_v52)
        = val_main_v52 (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v52).trans (result_eq m c),
      (h c main_arg0).trans (kept m c).1,
      (h c main_arg1).trans (kept m c).2.1,
      (h c main_arg2).trans (kept m c).2.2.1,
      (h c main_arg3).trans (kept m c).2.2.2⟩)
    (run_seq scopedRefs_eq scopedSems_eq defs main (fun _ => ops) main_eq (fun _ => ops_sub) m ρ)

end Cert.ReferenceIdeal.RunValue

end
-- ==== Proof.lean ====
/-
  The certificate of a graph-convolution layer with similarity-filtered aggregation: the kernel and its reference compute,
  over the extended reals, the same `[50000, 128]` array from node features `h` (50000 × 128), edge features `e`
  (1 600 000 × 32), each edge's destination node and stacked weights `W` (128 × 160).

  Both form the per-node mean `hk` of incoming edge features (zero where a node has no incoming edge) and gather it back to
  the edges.  Per edge, the cosine of `hk` at its destination against its own features is compared with 1/2; edges below
  pass.  The passing features are averaged per node (the plain mean where none passes), giving the aggregated features
  `agg`.  The result is `[h, agg] · Wᵀ`.

  The kernel computes the mask and the masked features in a first tiled region (400 blocks of 4000 edges) and the product
  in a second (10 blocks of 5000 nodes) as `h · Whᵀ + agg · Weᵀ` with `Wh`, `We` the first 128 and last 32 columns of
  `W`; the reference computes everything with whole-array operations and one product with the stacked array.  Over the
  extended reals a change of float format is the identity, a row sum in either program is the same finite sum, and a sum
  of 160 products splits into its first 128 and last 32 terms (addition is commutative and associative there, infinities
  included), so no finiteness of the inputs is used.  The idealization rewrote no operation, so it preserves the kernel
  trivially.  The three programs' frames are their runs with the values forgotten.
-/
import proofs.«108021_j48077863911783_2_alg».proof.Defs
import proofs.«108021_j48077863911783_2_alg».proof.Proof.Gen.Kernel
import proofs.«108021_j48077863911783_2_alg».proof.Proof.Gen.Kernel.Skeleton
import proofs.«108021_j48077863911783_2_alg».proof.Proof.Gen.Kernel.Launch
import proofs.«108021_j48077863911783_2_alg».proof.Proof.Gen.Kernel.Points
import proofs.«108021_j48077863911783_2_alg».proof.Proof.Gen.Kernel.Frame
import proofs.«108021_j48077863911783_2_alg».proof.Proof.Gen.KernelIdeal
import proofs.«108021_j48077863911783_2_alg».proof.Proof.Gen.KernelIdeal.Skeleton
import proofs.«108021_j48077863911783_2_alg».proof.Proof.Gen.KernelIdeal.Launch
import proofs.«108021_j48077863911783_2_alg».proof.Proof.Gen.KernelIdeal.Points
import proofs.«108021_j48077863911783_2_alg».proof.Proof.Gen.KernelIdeal.Frame
import proofs.«108021_j48077863911783_2_alg».proof.Proof.Gen.ReferenceIdeal
import proofs.«108021_j48077863911783_2_alg».proof.Proof.Gen.Pre_finite_inputs
import proofs.«108021_j48077863911783_2_alg».proof.Proof.KernelRun
import proofs.«108021_j48077863911783_2_alg».proof.Proof.KernelValue
import proofs.«108021_j48077863911783_2_alg».proof.Proof.RefRunValue
import Idealize.ShloMosaic.Adequacy
import Idealize.ShloMosaic.Init

noncomputable section

namespace Cert.Proof

open Idealize.ShloMosaic Idealize.SL.Sem

namespace Claims

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.RunValue.run m ρ)

/-- The idealization rewrote nothing. -/
theorem preserves : Cert.preserves_Kernel_KernelIdeal := trivial

/-- From memories agreeing on the arguments both idealized programs end with the same result array: the reference's last
    stage of the arguments. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Glue.result_eq m ρ c), (h c).2⟩) (Cert.KernelIdeal.Run.run_main m ρ), ?_⟩
  refine (θ_run Cert.ReferenceIdeal.defs _ _).mono (fun _ h c => ⟨(h c).1.trans ?_, (h c).2⟩)
    (Cert.ReferenceIdeal.RunValue.run m' ρ')
  rw [(hagree c).1, (hagree c).2.1, (hagree c).2.2.1, (hagree c).2.2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
